-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S1024x4096 : Shape := ⟨2, ![1024, 4096]⟩
abbrev S4096x1024 : Shape := ⟨2, ![4096, 1024]⟩
abbrev S1x4096 : Shape := ⟨2, ![1, 4096]⟩
abbrev S1x1024 : Shape := ⟨2, ![1, 1024]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x4096 : S_.BroadcastsInDim S1x4096 (![] : Fin 0 → Fin S1x4096.rank)
  reducesTo_S1x4096_S_d0_1 : S1x4096.ReducesTo [0, 1] S_
  bcast_S_S1x1024 : S_.BroadcastsInDim S1x1024 (![] : Fin 0 → Fin S1x1024.rank)
  reducesTo_S1x1024_S_d0_1 : S1x1024.ReducesTo [0, 1] S_
  bcast_S_S4096 : S_.BroadcastsInDim S4096 (![] : Fin 0 → Fin S4096.rank)
  reducesTo_S4096_S_d0 : S4096.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1x1024 .f32) (main_arg12 : FVec F S1x4096 .f32) (main_arg13 : FVec F S4096 .f32) (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  let main_v54 : FVec F S1x1024 .f32 := Host.absf main_arg11
  let main_cst_20 : FVec F S_ .f32 := constant S_ .f32 0x7F800000#32
  let main_v55 : FVec F S1x1024 .f32 := broadcastInDim S1x1024 ![] bcast_S_S1x1024 main_cst_20
  let main_v56 : IVec S1x1024 1 := cmpf .olt main_v54 main_v55
  let main_c_21 : IVec S_ 1 := constantI S_ 1 1#1
  let main_v57 : IVec S_ 1 := (fun x v => Host.reduce IntOp.andi x v reducesTo_S1x1024_S_d0_1 h_S_) main_v56 main_c_21
  let main_v58 : IVec S_ 1 := andi main_v53 main_v57
  let main_v59 : FVec F S1x4096 .f32 := Host.absf main_arg12
  let main_cst_22 : FVec F S_ .f32 := constant S_ .f32 0x7F800000#32
  let main_v60 : FVec F S1x4096 .f32 := broadcastInDim S1x4096 ![] bcast_S_S1x4096 main_cst_22
  let main_v61 : IVec S1x4096 1 := cmpf .olt main_v59 main_v60
  let main_c_23 : IVec S_ 1 := constantI S_ 1 1#1
  let main_v62 : IVec S_ 1 := (fun x v => Host.reduce IntOp.andi x v reducesTo_S1x4096_S_d0_1 h_S_) main_v61 main_c_23
  let main_v63 : IVec S_ 1 := andi main_v58 main_v62
  let main_v64 : FVec F S4096 .f32 := Host.absf main_arg13
  let main_cst_24 : FVec F S_ .f32 := constant S_ .f32 0x7F800000#32
  let main_v65 : FVec F S4096 .f32 := broadcastInDim S4096 ![] bcast_S_S4096 main_cst_24
  let main_v66 : IVec S4096 1 := cmpf .olt main_v64 main_v65
  let main_c_25 : IVec S_ 1 := constantI S_ 1 1#1
  let main_v67 : IVec S_ 1 := (fun x v => Host.reduce IntOp.andi x v reducesTo_S4096_S_d0 h_S_) main_v66 main_c_25
  fn_part4 (F := F) main_v63 main_v67

def fn_part2 {F : FTy → Type} [FloatOps F] (main_arg7 : FVec F S1024x4096 .f32) (main_arg8 : FVec F S4096x1024 .f32) (main_arg9 : FVec F S1x4096 .f32) (main_arg10 : FVec F S1x1024 .f32) (main_arg11 : FVec F S1x1024 .f32) (main_arg12 : FVec F S1x4096 .f32) (main_arg13 : FVec F S4096 .f32) (main_v33 : IVec S_ 1) : IVec S_ 1 :=
  let main_v34 : FVec F S1024x4096 .f32 := Host.absf main_arg7
  let main_cst_12 : FVec F S_ .f32 := constant S_ .f32 0x7F800000#32
  let main_v35 : FVec F S1024x4096 .f32 := broadcastInDim S1024x4096 ![] bcast_S_S1024x4096 main_cst_12
  let main_v36 : IVec S1024x4096 1 := cmpf .olt main_v34 main_v35
  let main_c_13 : IVec S_ 1 := constantI S_ 1 1#1
  let main_v37 : IVec S_ 1 := (fun x v => Host.reduce IntOp.andi x v reducesTo_S1024x4096_S_d0_1 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S1x4096 .f32 := Host.absf main_arg9
  let main_cst_16 : FVec F S_ .f32 := constant S_ .f32 0x7F800000#32
  let main_v45 : FVec F S1x4096 .f32 := broadcastInDim S1x4096 ![] bcast_S_S1x4096 main_cst_16
  let main_v46 : IVec S1x4096 1 := cmpf .olt main_v44 main_v45
  let main_c_17 : IVec S_ 1 := constantI S_ 1 1#1
  let main_v47 : IVec S_ 1 := (fun x v => Host.reduce IntOp.andi x v reducesTo_S1x4096_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_arg11 main_arg12 main_arg13 main_v48 main_v49 main_v50

def fn_part1 {F : FTy → Type} [FloatOps F] (main_arg4 : FVec F S1x1024 .f32) (main_arg5 : FVec F S1x1024 .f32) (main_arg6 : FVec F S1x4096 .f32) (main_arg7 : FVec F S1024x4096 .f32) (main_arg8 : FVec F S4096x1024 .f32) (main_arg9 : FVec F S1x4096 .f32) (main_arg10 : FVec F S1x1024 .f32) (main_arg11 : FVec F S1x1024 .f32) (main_arg12 : FVec F S1x4096 .f32) (main_arg13 : FVec F S4096 .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x4096 .f32 := Host.absf main_arg6
  let main_cst_10 : FVec F S_ .f32 := constant S_ .f32 0x7F800000#32
  let main_v30 : FVec F S1x4096 .f32 := broadcastInDim S1x4096 ![] bcast_S_S1x4096 main_cst_10
  let main_v31 : IVec S1x4096 1 := cmpf .olt main_v29 main_v30
  let main_c_11 : IVec S_ 1 := constantI S_ 1 1#1
  let main_v32 : IVec S_ 1 := (fun x v => Host.reduce IntOp.andi x v reducesTo_S1x4096_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4x2048x4096 .f32) (main_arg1 : FVec F S1024x4096 .f32) (main_arg2 : FVec F S4096x1024 .f32) (main_arg3 : FVec F S1x4096 .f32) (main_arg4 : FVec F S1x1024 .f32) (main_arg5 : FVec F S1x1024 .f32) (main_arg6 : FVec F S1x4096 .f32) (main_arg7 : FVec F S1024x4096 .f32) (main_arg8 : FVec F S4096x1024 .f32) (main_arg9 : FVec F S1x4096 .f32) (main_arg10 : FVec F S1x1024 .f32) (main_arg11 : FVec F S1x1024 .f32) (main_arg12 : FVec F S1x4096 .f32) (main_arg13 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg4 main_arg5 main_arg6 main_arg7 main_arg8 main_arg9 main_arg10 main_arg11 main_arg12 main_arg13 main_v13 main_v16
-- ==== Kernel.lean ====
abbrev S4x2048x4096 : Shape := ⟨3, ![4, 2048, 4096]⟩
abbrev S1024x4096 : Shape := ⟨2, ![1024, 4096]⟩
abbrev S4096x1024 : Shape := ⟨2, ![4096, 1024]⟩
abbrev S1x4096 : Shape := ⟨2, ![1, 4096]⟩
abbrev S1x1024 : Shape := ⟨2, ![1, 1024]⟩
abbrev S4096 : Shape := ⟨1, ![4096]⟩
abbrev S8192x4096 : Shape := ⟨2, ![8192, 4096]⟩
abbrev S2048x4096 : Shape := ⟨2, ![2048, 4096]⟩
abbrev S8192x2048 : Shape := ⟨2, ![8192, 2048]⟩
abbrev S256x4096 : Shape := ⟨2, ![256, 4096]⟩
abbrev S256x2048 : Shape := ⟨2, ![256, 2048]⟩
abbrev S256x1024 : Shape := ⟨2, ![256, 1024]⟩

abbrev nBuf : Space → Nat
  | .hbm => 38
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S1024x4096, .f32⟩
  | .hbm, ⟨2, _⟩ => ⟨S4096x1024, .f32⟩
  | .hbm, ⟨3, _⟩ => ⟨S1x4096, .f32⟩
  | .hbm, ⟨4, _⟩ => ⟨S1x1024, .f32⟩
  | .hbm, ⟨5, _⟩ => ⟨S1x1024, .f32⟩
  | .hbm, ⟨6, _⟩ => ⟨S1x4096, .f32⟩
  | .hbm, ⟨7, _⟩ => ⟨S1024x4096, .f32⟩
  | .hbm, ⟨8, _⟩ => ⟨S4096x1024, .f32⟩
  | .hbm, ⟨9, _⟩ => ⟨S1x4096, .f32⟩
  | .hbm, ⟨10, _⟩ => ⟨S1x1024, .f32⟩
  | .hbm, ⟨11, _⟩ => ⟨S1x1024, .f32⟩
  | .hbm, ⟨12, _⟩ => ⟨S1x4096, .f32⟩
  | .hbm, ⟨13, _⟩ => ⟨S4096, .f32⟩
  | .hbm, ⟨14, _⟩ => ⟨S8192x4096, .f32⟩
  | .hbm, ⟨15, _⟩ => ⟨S1024x4096, .f32⟩
  | .hbm, ⟨16, _⟩ => ⟨S4096x1024, .f32⟩
  | .hbm, ⟨17, _⟩ => ⟨S4096x1024, .bf16⟩
  | .hbm, ⟨18, _⟩ => ⟨S1024x4096, .f32⟩
  | .hbm, ⟨19, _⟩ => ⟨S4096x1024, .f32⟩
  | .hbm, ⟨20, _⟩ => ⟨S4096x1024, .bf16⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S1024x4096, .f32⟩
  | .hbm, ⟨25, _⟩ => ⟨S1024x4096, .f32⟩
  | .hbm, ⟨26, _⟩ => ⟨S1024x4096, .f32⟩
  | .hbm, ⟨27, _⟩ => ⟨S1024x4096, .bf16⟩
  | .hbm, ⟨28, _⟩ => ⟨S4096x1024, .f32⟩
  | .hbm, ⟨29, _⟩ => ⟨S1024x4096, .f32⟩
  | .hbm, ⟨30, _⟩ => ⟨S1024x4096, .f32⟩
  | .hbm, ⟨31, _⟩ => ⟨S1024x4096, .f32⟩
  | .hbm, ⟨32, _⟩ => ⟨S1024x4096, .bf16⟩
  | .hbm, ⟨33, _⟩ => ⟨S2048x4096, .bf16⟩
  | .hbm, ⟨34, _⟩ => ⟨S1x4096, .f32⟩
  | .hbm, ⟨35, _⟩ => ⟨S8192x2048, .bf16⟩
  | .hbm, ⟨36, _⟩ => ⟨S8192x4096, .f32⟩
  | .hbm, ⟨37, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S4096x1024, .bf16⟩
  | .local _ .vmem, ⟨5, _⟩ => ⟨S4096x1024, .bf16⟩
  | .local _ .vmem, ⟨6, _⟩ => ⟨S1x1024, .f32⟩
  | .local _ .vmem, ⟨7, _⟩ => ⟨S1x1024, .f32⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S2048x4096, .bf16⟩
  | .local _ .vmem, ⟨13, _⟩ => ⟨S1x4096, .f32⟩
  | .local _ .vmem, ⟨14, _⟩ => ⟨S256x4096, .f32⟩
  | .local _ .vmem, ⟨15, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4x2048x4096_S8192x4096 : S4x2048x4096.ShapeCasts S8192x4096
  transposes_S1024x4096_S4096x1024_1_0 : S1024x4096.Transposes [1, 0] S4096x1024
  bitsLt_bf16_f32 : FTy.bits .bf16 < FTy.bits .f32
  transposes_S4096x1024_S1024x4096_1_0 : S4096x1024.Transposes [1, 0] S1024x4096
  bcast_S1x4096_S1024x4096_0_1 : S1x4096.BroadcastsInDim S1024x4096 (![0, 1] : Fin 2 → Fin S1024x4096.rank)
  concatenates_S1024x4096_S1024x4096_S2048x4096_d0 : Shape.Concatenates [S1024x4096, S1024x4096] S2048x4096 0
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x2048_S256x1024_0_0 : ∀ a, (![0, 0] : Fin 2 → Nat) a + S256x1024.size a ≤ S256x2048.size a
  h_S256x1024 : 0 < S256x1024.numel
  packedbf16_S256x2048_S256x1024_0_0 : (Rect.unit (s := S256x2048) ![0, 0] S256x1024.size inb_S256x2048_S256x1024_0_0).PackedRows (EltTy.packing .bf16)
  inb_S256x2048_S256x1024_0_1024 : ∀ a, (![0, 1024] : Fin 2 → Nat) a + S256x1024.size a ≤ S256x2048.size a
  packedbf16_S256x2048_S256x1024_0_1024 : (Rect.unit (s := S256x2048) ![0, 1024] S256x1024.size inb_S256x2048_S256x1024_0_1024).PackedRows (EltTy.packing .bf16)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  shapeCasts_S1x4096_S1x4096 : S1x4096.ShapeCasts S1x4096
  shapeCasts_S8192x4096_S4x2048x4096 : S8192x4096.ShapeCasts S4x2048x4096
  dot_S256x4096_S4096x1024_S256x1024_1_0_0_1_n_n_wf : DotDims.WF S256x4096 S4096x1024 S256x1024 [1] [0] [0] [1] [] []
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S8192x2048.size a
  hwx0_7 : ∀ i : grid0.Coords, EltTy.bits .bf16 = 32 ∨ (Rect.block (s := S8192x2048) S256x2048.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x2048.size a
  hwx1_0 : ∀ i : grid1.Coords, EltTy.bits .bf16 = 32 ∨ (Rect.block (s := S8192x2048) S256x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x4096.size a ≤ S2048x4096.size a
  hwx1_1 : ∀ i : grid1.Coords, EltTy.bits .bf16 = 32 ∨ (Rect.block (s := S2048x4096) S2048x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S8192x4096.size a
  hwx1_3 : ∀ i : grid1.Coords, EltTy.bits .f32 = 32 ∨ (Rect.block (s := S8192x4096) S256x4096.size (cc1_transform_3 i) (hinb1_3 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v21) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2048x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S1024x4096 : Shape := ⟨2, ![1024, 4096]⟩
abbrev S4096x1024 : Shape := ⟨2, ![4096, 1024]⟩
abbrev S1x4096 : Shape := ⟨2, ![1, 4096]⟩
abbrev S1x1024 : Shape := ⟨2, ![1, 1024]⟩
abbrev S4096 : Shape := ⟨1, ![4096]⟩
abbrev S8192x4096 : Shape := ⟨2, ![8192, 4096]⟩
abbrev S8192x1024 : Shape := ⟨2, ![8192, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1024x4096, .f32⟩
  | .hbm, ⟨2, _⟩ => ⟨S4096x1024, .f32⟩
  | .hbm, ⟨3, _⟩ => ⟨S1x4096, .f32⟩
  | .hbm, ⟨4, _⟩ => ⟨S1x1024, .f32⟩
  | .hbm, ⟨5, _⟩ => ⟨S1x1024, .f32⟩
  | .hbm, ⟨6, _⟩ => ⟨S1x4096, .f32⟩
  | .hbm, ⟨7, _⟩ => ⟨S1024x4096, .f32⟩
  | .hbm, ⟨8, _⟩ => ⟨S4096x1024, .f32⟩
  | .hbm, ⟨9, _⟩ => ⟨S1x4096, .f32⟩
  | .hbm, ⟨10, _⟩ => ⟨S1x1024, .f32⟩
  | .hbm, ⟨11, _⟩ => ⟨S1x1024, .f32⟩
  | .hbm, ⟨12, _⟩ => ⟨S1x4096, .f32⟩
  | .hbm, ⟨13, _⟩ => ⟨S4096, .f32⟩
  | .hbm, ⟨14, _⟩ => ⟨S8192x4096, .f32⟩
  | .hbm, ⟨15, _⟩ => ⟨S1024x4096, .f32⟩
  | .hbm, ⟨16, _⟩ => ⟨S4096x1024, .f32⟩
  | .hbm, ⟨17, _⟩ => ⟨S1x1024, .f32⟩
  | .hbm, ⟨18, _⟩ => ⟨S8192x4096, .f32⟩
  | .hbm, ⟨19, _⟩ => ⟨S8192x4096, .f32⟩
  | .hbm, ⟨20, _⟩ => ⟨S4096x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S1024x4096, .f32⟩
  | .hbm, ⟨29, _⟩ => ⟨S4096x1024, .f32⟩
  | .hbm, ⟨30, _⟩ => ⟨S1x1024, .f32⟩
  | .hbm, ⟨31, _⟩ => ⟨S8192x4096, .f32⟩
  | .hbm, ⟨32, _⟩ => ⟨S8192x4096, .f32⟩
  | .hbm, ⟨33, _⟩ => ⟨S4096x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1024x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S1x4096, .f32⟩
  | .hbm, ⟨43, _⟩ => ⟨S8192x4096, .f32⟩
  | .hbm, ⟨44, _⟩ => ⟨S8192x4096, .f32⟩
  | .hbm, ⟨45, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S1x4096_S8192x4096_0_1 : S1x4096.BroadcastsInDim S8192x4096 (![0, 1] : Fin 2 → Fin S8192x4096.rank)
  transposes_S1024x4096_S4096x1024_1_0 : S1024x4096.Transposes [1, 0] S4096x1024
  bcast_S1x1024_S8192x1024_0_1 : S1x1024.BroadcastsInDim S8192x1024 (![0, 1] : Fin 2 → Fin S8192x1024.rank)
  transposes_S4096x1024_S1024x4096_1_0 : S4096x1024.Transposes [1, 0] S1024x4096
  bcast_S4096_S1x4096_1 : S4096.BroadcastsInDim S1x4096 (![1] : Fin 1 → Fin S1x4096.rank)
  shapeCasts_S8192x4096_S4x2048x4096 : S8192x4096.ShapeCasts S4x2048x4096
  dot_S8192x4096_S4096x1024_S8192x1024_1_0_0_1_n_n_wf : DotDims.WF S8192x4096 S4096x1024 S8192x1024 [1] [0] [0] [1] [] []
  dot_S8192x1024_S1024x4096_S8192x4096_1_0_0_1_n_n_wf : DotDims.WF S8192x1024 S1024x4096 S8192x4096 [1] [0] [0] [1] [] []

variable [Facts₀]

def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.KernelRun.lean ====
/-
  The idealized kernel's run with its result named.

  @main is four segments: the host operations before the first region, the two regions, and the final reshape. The
  generated frame runs them and keeps, of the final state, the fourteen argument arrays. The final state holds more:
  every buffer outside the regions' scratch is at the contents `W4` that the four segments leave, folded from the launch
  memory. Here the same run is read once more, keeping also the result buffer, which therefore ends at `W4` of
  itself: the reshape of what the second region leaves in its output array.
-/
import proofs.«125026_j63342177681876_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the contents the four
    segments leave in it, and every argument array ends as launched. -/
theorem run : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.Named

end
-- ==== Proof.BlockValue.lean ====
/-
  What the two kernel bodies compute on one 256-row block, read entry by entry over the extended reals.

  The first body takes a block `x` of 256 rows of the flattened input, and for each of the two branches a row scale
  `a` (4096 entries), a 4096×1024 sign matrix `B` and a column scale `g` (1024 entries), and leaves
      hs p s = (Σ_k (x p k · a k) · B k s) · g s
  for the first branch in columns 0..1023 of its 256×2048 output block and the same for the second branch in columns
  1024..2047. The second body takes such a block `H`, the stacked 2048×4096 projection `U` and the bias row `β`, and
  leaves  y p o = (Σ_k H p k · U k o) + β o.  A change of float format is the identity here, a matrix product into a
  zero accumulator is the plain sum over the contracted axis, and broadcasting a row reads the row.
-/
import proofs.«125026_j63342177681876_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Idealize.ShloMosaic Idealize.ShloMosaic.ValueIdx Cert.KernelIdeal Cert.KernelIdeal.Gen

/-- The product of a 256×4096 block with a 4096×1024 matrix (the hidden projection). -/
abbrev dHid := dot_S256x4096_S4096x1024_S256x1024_1_0_0_1_n_n
/-- The product of a 256×2048 block with a 2048×4096 matrix (the stacked output projection). -/
abbrev dOut := dot_S256x2048_S2048x4096_S256x4096_1_0_0_1_n_n

/-! ## The two matrix products at a row and a column -/

theorem dHid_lhs0 (i : S256x1024.Idx) (q : dHid.contr.Idx) : (dHid.lhsIdx i q 0).val = (i 0).val := by
  unfold DotDims.lhsIdx
  rw [dif_neg (show ¬(0 : Fin S256x4096.rank) ∈ dHid.lhsBatch by decide), dif_pos (show (0 : Fin S256x4096.rank) ∈ dHid.lhsNonContracting by decide)]
  rfl
theorem dHid_lhs1 (i : S256x1024.Idx) (q : dHid.contr.Idx) : (dHid.lhsIdx i q 1).val = (q ⟨0, by decide⟩).val :=
  dHid.lhsIdx_val_of_single rfl i q
theorem dHid_rhs0 (i : S256x1024.Idx) (q : dHid.contr.Idx) : (dHid.rhsIdx i q 0).val = (q ⟨0, by decide⟩).val :=
  dHid.rhsIdx_val_of_single rfl i q
theorem dHid_rhs1 (i : S256x1024.Idx) (q : dHid.contr.Idx) : (dHid.rhsIdx i q 1).val = (i 1).val := by
  unfold DotDims.rhsIdx
  rw [dif_neg (show ¬(1 : Fin S4096x1024.rank) ∈ dHid.rhsBatch by decide), dif_pos (show (1 : Fin S4096x1024.rank) ∈ dHid.rhsNonContracting by decide)]
  rfl

/-- Entry (p, s) of a block times a matrix, into zeros: the sum over the 4096 contracted places. -/
theorem hid_matmul_apply (l : FVec Ideal S256x4096 .bf16) (r : FVec Ideal S4096x1024 .bf16) (p : Fin 256) (s : Fin 1024) :
    matmul dHid none l r (constant (F := Ideal) S256x1024 .f32 0x00000000#32) (ix2 p s) = ∑ k : Fin 4096, l (ix2 p k) * r (ix2 k s) := by
  refine (Ideal.matmul_constant_zero_apply dHid none l r (ix2 p s)).trans ?_
  rw [← Equiv.sum_comp (contrEquiv1 dHid 4096 rfl rfl).symm]
  refine Finset.sum_congr rfl fun k _ => ?_
  have hk := contrEquiv1_symm_val dHid 4096 rfl rfl k
  have el : dHid.lhsIdx (ix2 p s) ((contrEquiv1 dHid 4096 rfl rfl).symm k) = ix2 p k := funext fun a => Fin.ext (by
    match a with
    | ⟨0, _⟩ => exact dHid_lhs0 _ _
    | ⟨1, _⟩ => exact (dHid_lhs1 _ _).trans hk)
  have er : dHid.rhsIdx (ix2 p s) ((contrEquiv1 dHid 4096 rfl rfl).symm k) = ix2 k s := funext fun a => Fin.ext (by
    match a with
    | ⟨0, _⟩ => exact (dHid_rhs0 _ _).trans hk
    | ⟨1, _⟩ => exact dHid_rhs1 _ _)
  rw [el, er]

theorem dOut_lhs0 (i : S256x4096.Idx) (q : dOut.contr.Idx) : (dOut.lhsIdx i q 0).val = (i 0).val := by
  unfold DotDims.lhsIdx
  rw [dif_neg (show ¬(0 : Fin S256x2048.rank) ∈ dOut.lhsBatch by decide), dif_pos (show (0 : Fin S256x2048.rank) ∈ dOut.lhsNonContracting by decide)]
  rfl
theorem dOut_lhs1 (i : S256x4096.Idx) (q : dOut.contr.Idx) : (dOut.lhsIdx i q 1).val = (q ⟨0, by decide⟩).val :=
  dOut.lhsIdx_val_of_single rfl i q
theorem dOut_rhs0 (i : S256x4096.Idx) (q : dOut.contr.Idx) : (dOut.rhsIdx i q 0).val = (q ⟨0, by decide⟩).val :=
  dOut.rhsIdx_val_of_single rfl i q
theorem dOut_rhs1 (i : S256x4096.Idx) (q : dOut.contr.Idx) : (dOut.rhsIdx i q 1).val = (i 1).val := by
  unfold DotDims.rhsIdx
  rw [dif_neg (show ¬(1 : Fin S2048x4096.rank) ∈ dOut.rhsBatch by decide), dif_pos (show (1 : Fin S2048x4096.rank) ∈ dOut.rhsNonContracting by decide)]
  rfl

/-- Entry (p, o) of a block times the stacked projection, into zeros: the sum over the 2048 contracted places. -/
theorem out_matmul_apply (l : FVec Ideal S256x2048 .bf16) (r : FVec Ideal S2048x4096 .bf16) (p : Fin 256) (o : Fin 4096) :
    matmul dOut none l r (constant (F := Ideal) S256x4096 .f32 0x00000000#32) (ix2 p o) = ∑ k : Fin 2048, l (ix2 p k) * r (ix2 k o) := by
  refine (Ideal.matmul_constant_zero_apply dOut none l r (ix2 p o)).trans ?_
  rw [← Equiv.sum_comp (contrEquiv1 dOut 2048 rfl rfl).symm]
  refine Finset.sum_congr rfl fun k _ => ?_
  have hk := contrEquiv1_symm_val dOut 2048 rfl rfl k
  have el : dOut.lhsIdx (ix2 p o) ((contrEquiv1 dOut 2048 rfl rfl).symm k) = ix2 p k := funext fun a => Fin.ext (by
    match a with
    | ⟨0, _⟩ => exact dOut_lhs0 _ _
    | ⟨1, _⟩ => exact (dOut_lhs1 _ _).trans hk)
  have er : dOut.rhsIdx (ix2 p o) ((contrEquiv1 dOut 2048 rfl rfl).symm k) = ix2 k o := funext fun a => Fin.ext (by
    match a with
    | ⟨0, _⟩ => exact (dOut_rhs0 _ _).trans hk
    | ⟨1, _⟩ => exact dOut_rhs1 _ _)
  rw [el, er]

/-! ## The payloads at an entry -/

/-- One branch's scaled hidden activation at row `p` of the block and hidden unit `s`. -/
def hsAt (x : FVec Ideal S256x4096 .f32) (a : FVec Ideal S1x4096 .f32) (B : FVec Ideal S4096x1024 .bf16) (g : FVec Ideal S1x1024 .f32)
    (p : Fin 256) (s : Fin 1024) : EReal :=
  (∑ k : Fin 4096, (x (ix2 p k) * a (ix2 (0 : Fin 1) k)) * B (ix2 k s)) * g (ix2 (0 : Fin 1) s)

/-- The output row `p` at column `o`: the block's row against the stacked projection's column, plus the bias. -/
def outAt (H : FVec Ideal S256x2048 .bf16) (U : FVec Ideal S2048x4096 .bf16) (β : FVec Ideal S1x4096 .f32) (p : Fin 256) (o : Fin 4096) : EReal :=
  (∑ k : Fin 2048, H (ix2 p k) * U (ix2 k o)) + β (ix2 (0 : Fin 1) o)

/-- The first store's payload of the first body is the first branch's hidden activation. -/
theorem pay2_apply (x : FVec Ideal S256x4096 .f32) (a : FVec Ideal S1x4096 .f32) (B : FVec Ideal S4096x1024 .bf16) (g : FVec Ideal S1x1024 .f32)
    (p : Fin 256) (s : Fin 1024) : k0_pay2 (F := Ideal) x a B g (ix2 p s) = hsAt x a B g p s := by
  unfold k0_pay2 k0_pay1 hsAt
  refine congrArg₂ (· * ·) ((hid_matmul_apply _ _ p s).trans (Finset.sum_congr rfl fun k _ => congrArg₂ (· * ·) ?_ ?_)) ?_
  · show (shapeCast S256x4096 x _) (ix2 p k) * (broadcastTo S256x4096 a _) (ix2 p k) = _
    rw [shapeCast_self, broadcastTo_1b_ab_apply]
  · show shapeCast S4096x1024 B _ (ix2 k s) = _
    rw [shapeCast_self]
  · show broadcastTo S256x1024 (shapeCast S1x1024 g _) _ (ix2 p s) = _
    rw [broadcastTo_1b_ab_apply, shapeCast_self]

/-- The second store's payload of the first body is the second branch's hidden activation. -/
theorem pay3_apply (x : FVec Ideal S256x4096 .f32) (a : FVec Ideal S1x4096 .f32) (B : FVec Ideal S4096x1024 .bf16) (g : FVec Ideal S1x1024 .f32)
    (p : Fin 256) (s : Fin 1024) : k0_pay3 (F := Ideal) x a B g (ix2 p s) = hsAt x a B g p s := by
  unfold k0_pay3 k0_pay1 hsAt
  refine congrArg₂ (· * ·) ((hid_matmul_apply _ _ p s).trans (Finset.sum_congr rfl fun k _ => congrArg₂ (· * ·) ?_ ?_)) ?_
  · show (shapeCast S256x4096 x _) (ix2 p k) * (broadcastTo S256x4096 a _) (ix2 p k) = _
    rw [shapeCast_self, broadcastTo_1b_ab_apply]
  · show shapeCast S4096x1024 B _ (ix2 k s) = _
    rw [shapeCast_self]
  · show broadcastTo S256x1024 (shapeCast S1x1024 g _) _ (ix2 p s) = _
    rw [broadcastTo_1b_ab_apply, shapeCast_self]

/-- The second body's payload is the block's row against the stacked projection, plus the bias. -/
theorem pay1_apply (H : FVec Ideal S256x2048 .bf16) (U : FVec Ideal S2048x4096 .bf16) (β : FVec Ideal S1x4096 .f32) (p : Fin 256) (o : Fin 4096) :
    k1_pay1 (F := Ideal) H U β (ix2 p o) = outAt H U β p o := by
  unfold k1_pay1 outAt
  refine congrArg₂ (· + ·) ((out_matmul_apply _ _ p o).trans (Finset.sum_congr rfl fun k _ => congrArg₂ (· * ·) ?_ ?_)) ?_
  · show shapeCast S256x2048 H _ (ix2 p k) = _
    rw [shapeCast_self]
  · show shapeCast S2048x4096 U _ (ix2 k o) = _
    rw [shapeCast_self]
  · show broadcastTo S256x4096 (shapeCast S1x4096 β _) _ (ix2 p o) = _
    rw [broadcastTo_1b_ab_apply, shapeCast_self]

end Cert.KernelIdeal.BlockValue

end
-- ==== Proof.BlockStore.lean ====
/-
  What each kernel body leaves in its output block, as ONE function of the block index.

  The first body stores twice into its 256×2048 block: the first branch's hidden activations into columns 0..1023 and
  the second branch's into columns 1024..2047. The two rectangles tile the block, so the block ends as the function
  that reads the first branch left of column 1024 and the second branch, shifted by 1024, right of it. The second body
  stores once, over its whole 256×4096 block.
-/
import proofs.«125026_j63342177681876_2_alg».proof.Proof.BlockValue

noncomputable section

namespace Cert.KernelIdeal.BlockValue

open Idealize.ShloMosaic Idealize.ShloMosaic.ValueIdx Cert.KernelIdeal Cert.KernelIdeal.Gen

theorem off_zero : (![0, 0] : Fin 2 → Nat) = fun _ => 0 := funext fun a => by fin_cases a <;> rfl

/-- The first body's output block: the two branches' hidden activations side by side. -/
def hsBlock (x : FVec Ideal S256x4096 .f32) (a a' : FVec Ideal S1x4096 .f32) (B B' : FVec Ideal S4096x1024 .bf16) (g g' : FVec Ideal S1x1024 .f32) :
    S256x2048.Idx → EReal := fun y =>
  if h : (y 1).val < 1024 then hsAt x a B g ⟨(y 0).val, idx2_lt0 y⟩ ⟨(y 1).val, h⟩
  else hsAt x a' B' g' ⟨(y 0).val, idx2_lt0 y⟩ ⟨(y 1).val - 1024, by have := idx2_lt1 y; omega⟩

/-- The second body's output block. -/
def outBlock (H : FVec Ideal S256x2048 .bf16) (U : FVec Ideal S2048x4096 .bf16) (β : FVec Ideal S1x4096 .f32) : S256x4096.Idx → EReal := fun y =>
  outAt H U β ⟨(y 0).val, idx2_lt0 y⟩ ⟨(y 1).val, idx2_lt1 y⟩

/-- After the first body its output block holds the two branches side by side. -/
theorem out0_7_eq (x : Vec Ideal S256x4096 .f32) (a a' : Vec Ideal S1x4096 .f32) (B B' : Vec Ideal S4096x1024 .bf16) (g g' : Vec Ideal S1x1024 .f32) :
    out0_7 (F := Ideal) x a a' B B' g g' = hsBlock x a a' B B' g g' := by
  funext y
  unfold out0_7
  refine View.canon_apply_of_pieces (Val := Elt Ideal) (hsBlock x a a' B B' g g') _ ?_ y (cover0_7 _ _ y)
  intro pc hpc
  simp only [List.mem_cons, List.mem_nil_iff, or_false] at hpc
  rcases hpc with rfl | rfl
  · intro x'
    obtain ⟨p, s, rfl⟩ : ∃ (p : Fin 256) (s : Fin 1024), x' = ix2 p s := ⟨x' 0, x' 1, eq_ix2 x'⟩
    show k0_pay3 (View.ld x r0_0) (View.ld a' r0_1) (View.ld B' r0_2) (View.ld g' r0_3) (ix2 p s) = hsBlock x a a' B B' g g' (r0_5.emb (ix2 p s))
    rw [View.ld_unit_zero (S := S256x4096) off_zero, View.ld_unit_zero (S := S1x4096) off_zero,
      View.ld_unit_zero (S := S4096x1024) off_zero, View.ld_unit_zero (S := S1x1024) off_zero, pay3_apply]
    have e0 : ((r0_5.emb (ix2 p s)) 0).val = p.val := by
      rw [Rect.emb_apply]; show 0 + 1 * p.val = p.val; omega
    have e1 : ((r0_5.emb (ix2 p s)) 1).val = 1024 + s.val := by
      rw [Rect.emb_apply]; show 1024 + 1 * s.val = 1024 + s.val; omega
    unfold hsBlock
    rw [dif_neg (by rw [e1]; omega)]
    congr 1
    · exact Fin.ext e0.symm
    · exact Fin.ext (by show s.val = ((r0_5.emb (ix2 p s)) 1).val - 1024; rw [e1]; omega)
  · intro x'
    obtain ⟨p, s, rfl⟩ : ∃ (p : Fin 256) (s : Fin 1024), x' = ix2 p s := ⟨x' 0, x' 1, eq_ix2 x'⟩
    show k0_pay2 (View.ld x r0_0) (View.ld a r0_1) (View.ld B r0_2) (View.ld g r0_3) (ix2 p s) = hsBlock x a a' B B' g g' (r0_4.emb (ix2 p s))
    rw [View.ld_unit_zero (S := S256x4096) off_zero, View.ld_unit_zero (S := S1x4096) off_zero,
      View.ld_unit_zero (S := S4096x1024) off_zero, View.ld_unit_zero (S := S1x1024) off_zero, pay2_apply]
    have e0 : ((r0_4.emb (ix2 p s)) 0).val = p.val := by
      rw [Rect.emb_apply]; show 0 + 1 * p.val = p.val; omega
    have e1 : ((r0_4.emb (ix2 p s)) 1).val = s.val := by
      rw [Rect.emb_apply]; show 0 + 1 * s.val = s.val; omega
    unfold hsBlock
    rw [dif_pos (by rw [e1]; exact s.isLt)]
    congr 1
    · exact Fin.ext e0.symm
    · exact Fin.ext e1.symm

/-- After the second body its output block holds each row against the stacked projection, plus the bias. -/
theorem out1_3_eq (H : Vec Ideal S256x2048 .bf16) (U : Vec Ideal S2048x4096 .bf16) (β : Vec Ideal S1x4096 .f32) :
    out1_3 (F := Ideal) H U β = outBlock H U β := by
  unfold out1_3
  rw [View.canon_unit_zero off_zero]
  rw [View.ld_unit_zero (S := S256x2048) off_zero, View.ld_unit_zero (S := S2048x4096) off_zero, View.ld_unit_zero (S := S1x4096) off_zero]
  funext y
  obtain ⟨p, o, rfl⟩ : ∃ (p : Fin 256) (o : Fin 4096), y = ix2 p o := ⟨y 0, y 1, eq_ix2 y⟩
  rw [pay1_apply]
  rfl

end Cert.KernelIdeal.BlockValue

end
-- ==== Proof.ArrayValue.lean ====
/-
  From blocks to arrays: what each region leaves in its output array, as one function of the arrays it reads.

  Both regions walk the 8192 rows in 32 blocks of 256 rows: at grid point `t` the row-blocked windows hold rows
  `256 t .. 256 t + 255` and every other window holds its whole (resident) array. So what point `t` writes back is
  rows `256 t ..` of ONE function of the whole arrays — the hidden activations `hidArr` for the first region, the
  output `outArr` for the second — and since the 32 blocks cover all rows, the output array ends as that function.
  Everything is stated at the buffer contents `V` that a region finds when it is entered.
-/
import proofs.«125026_j63342177681876_2_alg».proof.Proof.BlockStore

set_option maxRecDepth 16384

noncomputable section

namespace Cert.KernelIdeal.ArrayValue

open Idealize.ShloMosaic Idealize.ShloMosaic.TcCoe Idealize.ShloMosaic.ValueIdx
open Cert.KernelIdeal Cert.KernelIdeal.Gen Cert.KernelIdeal.BlockValue
open Idealize.SL.Sem
open Idealize.ShloMosaic.Pipeline (Dat)

/-! ## The two whole-array functions -/

/-- One branch's scaled hidden activation at row `n` of all 8192 and hidden unit `s`:
    `(Σ_k (X n k · a k) · B k s) · g s`. -/
def hidAt (X : S8192x4096.Idx → EReal) (a : S1x4096.Idx → EReal) (B : S4096x1024.Idx → EReal) (g : S1x1024.Idx → EReal)
    (n : Fin 8192) (s : Fin 1024) : EReal :=
  (∑ k : Fin 4096, (X (ix2 n k) * a (ix2 (0 : Fin 1) k)) * B (ix2 k s)) * g (ix2 (0 : Fin 1) s)

/-- The two branches' hidden activations side by side: the first in columns 0..1023, the second in 1024..2047. -/
def hidArr (X : S8192x4096.Idx → EReal) (a a' : S1x4096.Idx → EReal) (B B' : S4096x1024.Idx → EReal) (g g' : S1x1024.Idx → EReal) :
    S8192x2048.Idx → EReal := fun i =>
  if h : (i 1).val < 1024 then hidAt X a B g ⟨(i 0).val, idx2_lt0 i⟩ ⟨(i 1).val, h⟩
  else hidAt X a' B' g' ⟨(i 0).val, idx2_lt0 i⟩ ⟨(i 1).val - 1024, by have := idx2_lt1 i; omega⟩

/-- Each row of `H` against each column of the stacked projection `U`, plus the bias row. -/
def outArr (H : S8192x2048.Idx → EReal) (U : S2048x4096.Idx → EReal) (β : S1x4096.Idx → EReal) : S8192x4096.Idx → EReal := fun i =>
  (∑ k : Fin 2048, H (ix2 (⟨(i 0).val, idx2_lt0 i⟩ : Fin 8192) k) * U (ix2 k (⟨(i 1).val, idx2_lt1 i⟩ : Fin 4096)))
    + β (ix2 (0 : Fin 1) (⟨(i 1).val, idx2_lt1 i⟩ : Fin 4096))

/-! ## A block's function is the array's function on the block's rows -/

/-- If `x` is rows `256 T ..` of `X` and the other operands are the whole arrays, the first body's block at a local
    index is `hidArr` at the array index `256 T` rows further down. -/
theorem hsBlock_eq_hidArr (X : S8192x4096.Idx → EReal) (a a' : S1x4096.Idx → EReal) (B B' : S4096x1024.Idx → EReal) (g g' : S1x1024.Idx → EReal)
    (x : FVec Ideal S256x4096 .f32) (xa xa' : FVec Ideal S1x4096 .f32) (xB xB' : FVec Ideal S4096x1024 .bf16) (xg xg' : FVec Ideal S1x1024 .f32) (T : ℕ)
    (hx : ∀ (p : Fin 256) (k : Fin 4096) (n : Fin 8192), n.val = T * 256 + p.val → x (ix2 p k) = X (ix2 n k))
    (ha : xa = a) (ha' : xa' = a') (hB : xB = B) (hB' : xB' = B') (hg : xg = g) (hg' : xg' = g')
    (y : S256x2048.Idx) (i : S8192x2048.Idx) (h0 : (i 0).val = T * 256 + (y 0).val) (h1 : (i 1).val = (y 1).val) :
    hsBlock x xa xa' xB xB' xg xg' y = hidArr X a a' B B' g g' i := by
  subst ha ha' hB hB' hg hg'
  unfold hsBlock hidArr
  by_cases hlt : (y 1).val < 1024
  · rw [dif_pos hlt, dif_pos (by omega)]
    have es : (⟨(i 1).val, by omega⟩ : Fin 1024) = ⟨(y 1).val, hlt⟩ := Fin.ext h1
    rw [es]
    unfold hsAt hidAt
    exact congrArg (· * _) (Finset.sum_congr rfl fun k _ => congrArg (· * _) (congrArg (· * _) (hx _ k _ h0)))
  · rw [dif_neg hlt, dif_neg (by omega)]
    have es : (⟨(i 1).val - 1024, by have := idx2_lt1 i; omega⟩ : Fin 1024) = ⟨(y 1).val - 1024, by have := idx2_lt1 y; omega⟩ :=
      Fin.ext (by show (i 1).val - 1024 = (y 1).val - 1024; omega)
    rw [es]
    unfold hsAt hidAt
    exact congrArg (· * _) (Finset.sum_congr rfl fun k _ => congrArg (· * _) (congrArg (· * _) (hx _ k _ h0)))

/-- If `xH` is rows `256 T ..` of `H` and the other operands are the whole arrays, the second body's block at a local
    index is `outArr` at the array index `256 T` rows further down. -/
theorem outBlock_eq_outArr (H : S8192x2048.Idx → EReal) (U : S2048x4096.Idx → EReal) (β : S1x4096.Idx → EReal)
    (xH : FVec Ideal S256x2048 .bf16) (xU : FVec Ideal S2048x4096 .bf16) (xβ : FVec Ideal S1x4096 .f32) (T : ℕ)
    (hH : ∀ (p : Fin 256) (k : Fin 2048) (n : Fin 8192), n.val = T * 256 + p.val → xH (ix2 p k) = H (ix2 n k))
    (hU : xU = U) (hβ : xβ = β)
    (y : S256x4096.Idx) (i : S8192x4096.Idx) (h0 : (i 0).val = T * 256 + (y 0).val) (h1 : (i 1).val = (y 1).val) :
    outBlock xH xU xβ y = outArr H U β i := by
  subst hU hβ
  unfold outBlock outAt outArr
  have e1 : (⟨(i 1).val, idx2_lt1 i⟩ : Fin 4096) = ⟨(y 1).val, idx2_lt1 y⟩ := Fin.ext h1
  rw [e1]
  exact congrArg (· + _) (Finset.sum_congr rfl fun k _ => congrArg (· * _) (hH _ k _ h0))

/-! ## The printed index maps, decided over the 32 grid points -/

/-- Region 0: the input rows and the output rows move with the point, one block of 256 rows per point. -/
theorem idx0_moving : ∀ t : Fin cfg0.N,
    win0_0.index t (0 : Fin 2) = t.val ∧ win0_0.index t (1 : Fin 2) = 0
    ∧ win0_7.index t (0 : Fin 2) = t.val ∧ win0_7.index t (1 : Fin 2) = 0 :=
  (by decide +kernel : ∀ t : Fin grid0.N, _)

/-- Region 0: the six other windows stay at block (0, 0): each holds its whole array at every point. -/
theorem idx0_resident : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Region 1: the hidden rows and the output rows move with the point. -/
theorem idx1_moving : ∀ t : Fin cfg1.N,
    win1_0.index t (0 : Fin 2) = t.val ∧ win1_0.index t (1 : Fin 2) = 0
    ∧ win1_3.index t (0 : Fin 2) = t.val ∧ win1_3.index t (1 : Fin 2) = 0 :=
  (by decide +kernel : ∀ t : Fin grid1.N, _)

/-- Region 1: the stacked projection and the bias row stay whole. -/
theorem idx1_resident : ∀ t : Fin cfg1.N,
    (win1_1.index t (0 : Fin 2) = 0 ∧ win1_1.index t (1 : Fin 2) = 0)
    ∧ (win1_2.index t (0 : Fin 2) = 0 ∧ win1_2.index t (1 : Fin 2) = 0) :=
  (by decide +kernel : ∀ t : Fin grid1.N, _)

variable (V : (c : Dev nD) → (b : Ref sig .tc) → Buf (Elt Ideal) ((c : Thread nD τ).loc b))

/-! ## Region 0 -/

/-- WHAT POINT `t` OF REGION 0 WRITES BACK is block `t` of the hidden activations of the arrays the region finds. -/
theorem flushed0_eq (c : Dev nD) (t : Fin cfg0.N) :
    (dat0 V c).flushed 7 t = ((cfg0.win 7).blk t).view.read (Elt Ideal)
      (hidArr (V c main_v0) (V c main_arg3) (V c main_arg9) (V c main_v3) (V c main_v6) (V c main_v7) (V c main_v8)) := by
  show (cfg0.win 7).cut (grid0.coords t) ((dat0 V c).after 7 t) = _
  rw [after0_7, out0_7_eq]
  obtain ⟨m00, m01, m70, m71⟩ := idx0_moving t
  obtain ⟨⟨r10, r11⟩, ⟨r20, r21⟩, ⟨r30, r31⟩, ⟨r40, r41⟩, ⟨r50, r51⟩, ⟨r60, r61⟩⟩ := idx0_resident t
  funext j
  show hsBlock (iblk0 V c 0 t) (iblk0 V c 1 t) (iblk0 V c 2 t) (iblk0 V c 3 t) (iblk0 V c 4 t) (iblk0 V c 5 t) (iblk0 V c 6 t) j
    = hidArr (V c main_v0) (V c main_arg3) (V c main_arg9) (V c main_v3) (V c main_v6) (V c main_v7) (V c main_v8) (((cfg0.win 7).blk t).view.emb j)
  refine hsBlock_eq_hidArr (V c main_v0) (V c main_arg3) (V c main_arg9) (V c main_v3) (V c main_v6) (V c main_v7) (V c main_v8)
    (iblk0 V c 0 t) (iblk0 V c 1 t) (iblk0 V c 2 t) (iblk0 V c 3 t) (iblk0 V c 4 t) (iblk0 V c 5 t) (iblk0 V c 6 t) t.val
    ?hx ?ha ?ha' ?hB ?hB' ?hg ?hg' j (((cfg0.win 7).blk t).view.emb j) ?h0 ?h1
  case hx =>
    intro p k n hn
    show V c main_v0 (((cfg0.win 0).blk t).view.emb (ix2 p k)) = V c main_v0 (ix2 n k)
    refine congrArg _ (funext fun a => Fin.ext ?_)
    match a with
    | ⟨0, _⟩ => show win0_0.index t (0 : Fin 2) * 256 + 1 * p.val = n.val; omega
    | ⟨1, _⟩ => show win0_0.index t (1 : Fin 2) * 4096 + 1 * k.val = k.val; omega
  case ha =>
    funext y
    show V c main_arg3 (((cfg0.win 1).blk t).view.emb y) = V c main_arg3 y
    refine congrArg _ (funext fun a => Fin.ext ?_)
    match a with
    | ⟨0, _⟩ => show win0_1.index t (0 : Fin 2) * 1 + 1 * (y 0).val = (y 0).val; omega
    | ⟨1, _⟩ => show win0_1.index t (1 : Fin 2) * 4096 + 1 * (y 1).val = (y 1).val; omega
  case ha' =>
    funext y
    show V c main_arg9 (((cfg0.win 2).blk t).view.emb y) = V c main_arg9 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 4096 + 1 * (y 1).val = (y 1).val; omega
  case hB =>
    funext y
    show V c main_v3 (((cfg0.win 3).blk t).view.emb y) = V c main_v3 y
    refine congrArg _ (funext fun a => Fin.ext ?_)
    match a with
    | ⟨0, _⟩ => show win0_3.index t (0 : Fin 2) * 4096 + 1 * (y 0).val = (y 0).val; omega
    | ⟨1, _⟩ => show win0_3.index t (1 : Fin 2) * 1024 + 1 * (y 1).val = (y 1).val; omega
  case hB' =>
    funext y
    show V c main_v6 (((cfg0.win 4).blk t).view.emb y) = V c main_v6 y
    refine congrArg _ (funext fun a => Fin.ext ?_)
    match a with
    | ⟨0, _⟩ => show win0_4.index t (0 : Fin 2) * 4096 + 1 * (y 0).val = (y 0).val; omega
    | ⟨1, _⟩ => show win0_4.index t (1 : Fin 2) * 1024 + 1 * (y 1).val = (y 1).val; omega
  case hg =>
    funext y
    show V c main_v7 (((cfg0.win 5).blk t).view.emb y) = V c main_v7 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 1024 + 1 * (y 1).val = (y 1).val; omega
  case hg' =>
    funext y
    show V c main_v8 (((cfg0.win 6).blk t).view.emb y) = V c main_v8 y
    refine congrArg _ (funext fun a => Fin.ext ?_)
    match a with
    | ⟨0, _⟩ => show win0_6.index t (0 : Fin 2) * 1 + 1 * (y 0).val = (y 0).val; omega
    | ⟨1, _⟩ => show win0_6.index t (1 : Fin 2) * 1024 + 1 * (y 1).val = (y 1).val; omega
  case h0 => show win0_7.index t (0 : Fin 2) * 256 + 1 * (j 0).val = t.val * 256 + (j 0).val; omega
  case h1 => show win0_7.index t (1 : Fin 2) * 2048 + 1 * (j 1).val = (j 1).val; omega

/-- An index of the hidden array is in point `t`'s block iff each coordinate is in the block's range on its axis. -/
theorem mem_blk0 (t : Fin cfg0.N) (i : S8192x2048.Idx) :
    i ∈ ((cfg0.win 7).blk t).view.set ↔ ∀ a : Fin 2, win0_7.index t a * S256x2048.size a ≤ (i a).val ∧ (i a).val < win0_7.index t a * S256x2048.size a + S256x2048.size a := by
  show i ∈ ((View.whole main_v21).slice (win0_7.rect t)).set ↔ _
  rw [View.set_slice_whole, Rect.mem_set_unit]
  exact Iff.rfl

/-- Every row of the hidden array is in some point's block: row `r` in block `r / 256`. -/
theorem cover0 (i : S8192x2048.Idx) : ∃ t : Fin cfg0.N, (cfg0.win 7).flush t = true ∧ i ∈ ((cfg0.win 7).blk t).view.set := by
  have hi0 : (i 0).val < 8192 := idx2_lt0 i
  have hi1 : (i 1).val < 2048 := idx2_lt1 i
  have hN : cfg0.N = 32 := N_0
  have ht : (i 0).val / 256 < cfg0.N := by rw [hN]; omega
  obtain ⟨-, -, m70, m71⟩ := idx0_moving ⟨(i 0).val / 256, ht⟩
  have m70' : win0_7.index ⟨(i 0).val / 256, ht⟩ (0 : Fin 2) = (i 0).val / 256 := m70
  refine ⟨⟨(i 0).val / 256, ht⟩, flush0_7 _, ?_⟩
  rw [mem_blk0]
  intro a
  match a with
  | ⟨0, _⟩ => show win0_7.index ⟨(i 0).val / 256, ht⟩ (0 : Fin 2) * 256 ≤ (i 0).val ∧ (i 0).val < win0_7.index ⟨(i 0).val / 256, ht⟩ (0 : Fin 2) * 256 + 256; omega
  | ⟨1, _⟩ => show win0_7.index ⟨(i 0).val / 256, ht⟩ (1 : Fin 2) * 2048 ≤ (i 1).val ∧ (i 1).val < win0_7.index ⟨(i 0).val / 256, ht⟩ (1 : Fin 2) * 2048 + 2048; omega

/-- THE HIDDEN ARRAY after region 0: the two branches' hidden activations of the arrays the region found. -/
theorem arr0 (c : Dev nD) : (dat0 V c).arrAt 7 cfg0.N
    = hidArr (V c main_v0) (V c main_arg3) (V c main_arg9) (V c main_v3) (V c main_v6) (V c main_v7) (V c main_v8) :=
  (dat0 V c).arrAt_eq_of_cover 7 _ (fun t _ => flushed0_eq V c t) cover0

/-! ## Region 1 -/

/-- WHAT POINT `t` OF REGION 1 WRITES BACK is block `t` of the output function of the arrays the region finds. -/
theorem flushed1_eq (c : Dev nD) (t : Fin cfg1.N) :
    (dat1 V c).flushed 3 t = ((cfg1.win 3).blk t).view.read (Elt Ideal) (outArr (V c main_v21) (V c main_v19) (V c main_v20)) := by
  show (cfg1.win 3).cut (grid1.coords t) ((dat1 V c).after 3 t) = _
  rw [after1_3, out1_3_eq]
  obtain ⟨m00, m01, m30, m31⟩ := idx1_moving t
  obtain ⟨⟨r10, r11⟩, ⟨r20, r21⟩⟩ := idx1_resident t
  funext j
  show outBlock (iblk1 V c 0 t) (iblk1 V c 1 t) (iblk1 V c 2 t) j
    = outArr (V c main_v21) (V c main_v19) (V c main_v20) (((cfg1.win 3).blk t).view.emb j)
  refine outBlock_eq_outArr (V c main_v21) (V c main_v19) (V c main_v20) (iblk1 V c 0 t) (iblk1 V c 1 t) (iblk1 V c 2 t) t.val
    ?hH ?hU ?hβ j (((cfg1.win 3).blk t).view.emb j) ?h0 ?h1
  case hH =>
    intro p k n hn
    show V c main_v21 (((cfg1.win 0).blk t).view.emb (ix2 p k)) = V c main_v21 (ix2 n k)
    refine congrArg _ (funext fun a => Fin.ext ?_)
    match a with
    | ⟨0, _⟩ => show win1_0.index t (0 : Fin 2) * 256 + 1 * p.val = n.val; omega
    | ⟨1, _⟩ => show win1_0.index t (1 : Fin 2) * 2048 + 1 * k.val = k.val; omega
  case hU =>
    funext y
    show V c main_v19 (((cfg1.win 1).blk t).view.emb y) = V c main_v19 y
    refine congrArg _ (funext fun a => Fin.ext ?_)
    match a with
    | ⟨0, _⟩ => show win1_1.index t (0 : Fin 2) * 2048 + 1 * (y 0).val = (y 0).val; omega
    | ⟨1, _⟩ => show win1_1.index t (1 : Fin 2) * 4096 + 1 * (y 1).val = (y 1).val; omega
  case hβ =>
    funext y
    show V c main_v20 (((cfg1.win 2).blk t).view.emb y) = V c main_v20 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 4096 + 1 * (y 1).val = (y 1).val; omega
  case h0 => show win1_3.index t (0 : Fin 2) * 256 + 1 * (j 0).val = t.val * 256 + (j 0).val; omega
  case h1 => show win1_3.index t (1 : Fin 2) * 4096 + 1 * (j 1).val = (j 1).val; omega

/-- An index of the output array is in point `t`'s block iff each coordinate is in the block's range on its axis. -/
theorem mem_blk1 (t : Fin cfg1.N) (i : S8192x4096.Idx) :
    i ∈ ((cfg1.win 3).blk t).view.set ↔ ∀ a : Fin 2, win1_3.index t a * S256x4096.size a ≤ (i a).val ∧ (i a).val < win1_3.index t a * S256x4096.size a + S256x4096.size a := by
  show i ∈ ((View.whole main_v22).slice (win1_3.rect t)).set ↔ _
  rw [View.set_slice_whole, Rect.mem_set_unit]
  exact Iff.rfl

/-- Every row of the output array is in some point's block: row `r` in block `r / 256`. -/
theorem cover1 (i : S8192x4096.Idx) : ∃ t : Fin cfg1.N, (cfg1.win 3).flush t = true ∧ i ∈ ((cfg1.win 3).blk t).view.set := by
  have hi0 : (i 0).val < 8192 := idx2_lt0 i
  have hi1 : (i 1).val < 4096 := idx2_lt1 i
  have hN : cfg1.N = 32 := N_1
  have ht : (i 0).val / 256 < cfg1.N := by rw [hN]; omega
  obtain ⟨-, -, m30, m31⟩ := idx1_moving ⟨(i 0).val / 256, ht⟩
  have m30' : win1_3.index ⟨(i 0).val / 256, ht⟩ (0 : Fin 2) = (i 0).val / 256 := m30
  refine ⟨⟨(i 0).val / 256, ht⟩, flush1_3 _, ?_⟩
  rw [mem_blk1]
  intro a
  match a with
  | ⟨0, _⟩ => show win1_3.index ⟨(i 0).val / 256, ht⟩ (0 : Fin 2) * 256 ≤ (i 0).val ∧ (i 0).val < win1_3.index ⟨(i 0).val / 256, ht⟩ (0 : Fin 2) * 256 + 256; omega
  | ⟨1, _⟩ => show win1_3.index ⟨(i 0).val / 256, ht⟩ (1 : Fin 2) * 4096 ≤ (i 1).val ∧ (i 1).val < win1_3.index ⟨(i 0).val / 256, ht⟩ (1 : Fin 2) * 4096 + 4096; omega

/-- THE OUTPUT ARRAY after region 1: the output function of the arrays the region found. -/
theorem arr1 (c : Dev nD) : (dat1 V c).arrAt 3 cfg1.N = outArr (V c main_v21) (V c main_v19) (V c main_v20) :=
  (dat1 V c).arrAt_eq_of_cover 3 _ (fun t _ => flushed1_eq V c t) cover1

end Cert.KernelIdeal.ArrayValue

end
-- ==== Proof.KernelSpec.lean ====
/-
  The idealized kernel's result as one function of its fourteen argument arrays.

  Before the regions the host flattens `x` to 8192 rows, takes the sign matrices of the four weight arrays and transposes
  them, multiplies the two hidden scales of each branch, scales each transposed output sign matrix by its column scale
  `u1` and stacks the two scaled matrices on top of each other, and reshapes the bias to a row. The first region then
  computes both branches' hidden activations side by side, and the second region contracts them against the stacked
  matrix and adds the bias. Format changes are kept in the terms as the program has them; over the extended reals they
  are the identity.
-/
import proofs.«125026_j63342177681876_2_alg».proof.Proof.ArrayValue

noncomputable section

namespace Cert.KernelIdeal.Spec

open Idealize.ShloMosaic Cert.KernelIdeal Cert.KernelIdeal.Facts₀ Cert.KernelIdeal.ArrayValue

/-- The transposed sign matrix of a hidden projection (4096 inputs × 1024 hidden units), as the first region stages it. -/
def signT (w : (⟨S1024x4096, .f32⟩ : BufTy).Contents (Elt Ideal)) : (⟨S4096x1024, .bf16⟩ : BufTy).Contents (Elt Ideal) :=
  truncf (F := Ideal) .bf16 (transpose S4096x1024 [1, 0] (Host.sign (F := Ideal) w) transposes_S1024x4096_S4096x1024_1_0) bitsLt_bf16_f32

/-- A pre-scaled output projection (1024 hidden units × 4096 outputs): the transposed signs of `u`, each column `o`
    multiplied by the output scale `c o`. -/
def scaledT (u : (⟨S4096x1024, .f32⟩ : BufTy).Contents (Elt Ideal)) (c : (⟨S1x4096, .f32⟩ : BufTy).Contents (Elt Ideal)) :
    (⟨S1024x4096, .bf16⟩ : BufTy).Contents (Elt Ideal) :=
  truncf (F := Ideal) .bf16 (mulf (F := Ideal) (transpose S1024x4096 [1, 0] (Host.sign (F := Ideal) u) transposes_S4096x1024_S1024x4096_1_0)
    (broadcastInDim S1024x4096 ![0, 1] bcast_S1x4096_S1024x4096_0_1 c)) bitsLt_bf16_f32

/-- The two pre-scaled output projections, the first branch's on top of the second's: 2048 × 4096. -/
def stackU (u : (⟨S4096x1024, .f32⟩ : BufTy).Contents (Elt Ideal)) (c : (⟨S1x4096, .f32⟩ : BufTy).Contents (Elt Ideal))
    (u' : (⟨S4096x1024, .f32⟩ : BufTy).Contents (Elt Ideal)) (c' : (⟨S1x4096, .f32⟩ : BufTy).Contents (Elt Ideal)) :
    (⟨S2048x4096, .bf16⟩ : BufTy).Contents (Elt Ideal) :=
  concatenate S2048x4096 0 [⟨S1024x4096, scaledT u c⟩, ⟨S1024x4096, scaledT u' c'⟩] concatenates_S1024x4096_S1024x4096_S2048x4096_d0

/-- The hidden activations the first region leaves: both branches, side by side, of the flattened `x`. -/
def hidden (x : (⟨S4x2048x4096, .f32⟩ : BufTy).Contents (Elt Ideal)) (V : (⟨S1024x4096, .f32⟩ : BufTy).Contents (Elt Ideal))
    (v2 : (⟨S1x4096, .f32⟩ : BufTy).Contents (Elt Ideal)) (v1 u2 : (⟨S1x1024, .f32⟩ : BufTy).Contents (Elt Ideal))
    (V' : (⟨S1024x4096, .f32⟩ : BufTy).Contents (Elt Ideal)) (v2' : (⟨S1x4096, .f32⟩ : BufTy).Contents (Elt Ideal))
    (v1' u2' : (⟨S1x1024, .f32⟩ : BufTy).Contents (Elt Ideal)) : (⟨S8192x2048, .bf16⟩ : BufTy).Contents (Elt Ideal) :=
  hidArr (shapeCast S8192x4096 x shapeCasts_S4x2048x4096_S8192x4096) v2 v2' (signT V) (signT V') (mulf (F := Ideal) (φ := .f32) v1 u2) (mulf (F := Ideal) (φ := .f32) v1' u2')

/-- THE KERNEL'S RESULT before the final reshape: 8192 rows × 4096 outputs. -/
def kernelOut (x : (⟨S4x2048x4096, .f32⟩ : BufTy).Contents (Elt Ideal)) (V : (⟨S1024x4096, .f32⟩ : BufTy).Contents (Elt Ideal))
    (U : (⟨S4096x1024, .f32⟩ : BufTy).Contents (Elt Ideal)) (v2 : (⟨S1x4096, .f32⟩ : BufTy).Contents (Elt Ideal))
    (v1 u2 : (⟨S1x1024, .f32⟩ : BufTy).Contents (Elt Ideal)) (u1 : (⟨S1x4096, .f32⟩ : BufTy).Contents (Elt Ideal))
    (V' : (⟨S1024x4096, .f32⟩ : BufTy).Contents (Elt Ideal)) (U' : (⟨S4096x1024, .f32⟩ : BufTy).Contents (Elt Ideal))
    (v2' : (⟨S1x4096, .f32⟩ : BufTy).Contents (Elt Ideal)) (v1' u2' : (⟨S1x1024, .f32⟩ : BufTy).Contents (Elt Ideal))
    (u1' : (⟨S1x4096, .f32⟩ : BufTy).Contents (Elt Ideal)) (bias : (⟨S4096, .f32⟩ : BufTy).Contents (Elt Ideal)) :
    (⟨S8192x4096, .f32⟩ : BufTy).Contents (Elt Ideal) :=
  outArr (hidden x V v2 v1 u2 V' v2' v1' u2') (stackU U u1 U' u1') (shapeCast S1x4096 bias shapeCasts_S4096_S1x4096)

end Cert.KernelIdeal.Spec

end
-- ==== Proof.FoldValue.lean ====
/-
  The contents the run leaves in the result buffer, read back to the argument arrays.

  The run's boundary contents are a fold: the launch memory, then the host operations before the regions, then each
  region's output array replaced by what its write-backs leave, then the final reshape. Read at the result buffer the
  fold is the reshape of the second region's output array, which is the output function of the hidden array the first
  region left, the stacked projection and the bias row the host operations left; and the first region's hidden array is
  the hidden function of the flattened input, the row scales, the transposed sign matrices and the hidden scales the
  host operations left. Altogether: the reshape of `Spec.kernelOut` of the fourteen argument arrays as launched.
-/
import proofs.«125026_j63342177681876_2_alg».proof.Proof.KernelSpec
import Idealize.ShloMosaic.Lib.StableHlo.Run

set_option maxRecDepth 16384

noncomputable section

namespace Cert.KernelIdeal.FoldValue

open Idealize.ShloMosaic Idealize.ShloMosaic.TcCoe Idealize.ShloMosaic.StableHlo
open Cert.KernelIdeal Cert.KernelIdeal.Gen Cert.KernelIdeal.ArrayValue Cert.KernelIdeal.Spec
open Idealize.SL.Sem

variable (m : (ℓ : Loc nD τ sig) → Buf (Elt Ideal) ℓ) (ρ : Dev nD → PrngReg)

/-! ## What the host operations before the regions leave in each staged array -/

theorem staged_x (c : Dev nD) : V1 m ρ c main_v0 = shapeCast S8192x4096 (m ((c : Thread nD τ).loc main_arg0)) Facts₀.shapeCasts_S4x2048x4096_S8192x4096 := by
  show StableHlo.after hostOps0 (W0 m ρ c) (Proc.devRef .tc main_v0) = _
  after_results <;> rfl
theorem staged_v2 (c : Dev nD) : V1 m ρ c main_arg3 = m ((c : Thread nD τ).loc main_arg3) := by
  show StableHlo.after hostOps0 (W0 m ρ c) (Proc.devRef .tc main_arg3) = _
  after_results
theorem staged_v2' (c : Dev nD) : V1 m ρ c main_arg9 = m ((c : Thread nD τ).loc main_arg9) := by
  show StableHlo.after hostOps0 (W0 m ρ c) (Proc.devRef .tc main_arg9) = _
  after_results
theorem staged_V (c : Dev nD) : V1 m ρ c main_v3 = signT (m ((c : Thread nD τ).loc main_arg1)) := by
  show StableHlo.after hostOps0 (W0 m ρ c) (Proc.devRef .tc main_v3) = _
  after_results <;> rfl
theorem staged_V' (c : Dev nD) : V1 m ρ c main_v6 = signT (m ((c : Thread nD τ).loc main_arg7)) := by
  show StableHlo.after hostOps0 (W0 m ρ c) (Proc.devRef .tc main_v6) = _
  after_results <;> rfl
theorem staged_g (c : Dev nD) : V1 m ρ c main_v7 = mulf (F := Ideal) (φ := .f32) (m ((c : Thread nD τ).loc main_arg4)) (m ((c : Thread nD τ).loc main_arg5)) := by
  show StableHlo.after hostOps0 (W0 m ρ c) (Proc.devRef .tc main_v7) = _
  after_results <;> rfl
theorem staged_g' (c : Dev nD) : V1 m ρ c main_v8 = mulf (F := Ideal) (φ := .f32) (m ((c : Thread nD τ).loc main_arg10)) (m ((c : Thread nD τ).loc main_arg11)) := by
  show StableHlo.after hostOps0 (W0 m ρ c) (Proc.devRef .tc main_v8) = _
  after_results <;> rfl
set_option maxHeartbeats 2000000 in
theorem staged_U (c : Dev nD) : W1 m ρ c (Proc.devRef .tc main_v19)
    = stackU (m ((c : Thread nD τ).loc main_arg2)) (m ((c : Thread nD τ).loc main_arg6)) (m ((c : Thread nD τ).loc main_arg8)) (m ((c : Thread nD τ).loc main_arg12)) := by
  show StableHlo.after hostOps0 (W0 m ρ c) (Proc.devRef .tc main_v19) = _
  after_results_simp <;> rfl
theorem staged_bias (c : Dev nD) : W1 m ρ c (Proc.devRef .tc main_v20) = shapeCast S1x4096 (m ((c : Thread nD τ).loc main_arg13)) Facts₀.shapeCasts_S4096_S1x4096 := by
  show StableHlo.after hostOps0 (W0 m ρ c) (Proc.devRef .tc main_v20) = _
  after_results <;> rfl

/-! ## The regions' arrays -/

/-- The hidden array as the second region finds it: what the first region left. -/
theorem hidden_eq (c : Dev nD) : V2 m ρ c main_v21
    = hidden (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg7))
        (m ((c : Thread nD τ).loc main_arg9)) (m ((c : Thread nD τ).loc main_arg10)) (m ((c : Thread nD τ).loc main_arg11)) := by
  refine (W2_arr m ρ c 7).trans ((arr0 (V1 m ρ) c).trans ?_)
  rw [staged_x, staged_v2, staged_v2', staged_V, staged_V', staged_g, staged_g']
  rfl

/-- The stacked projection as the second region finds it: the first region does not touch it. -/
theorem stacked_eq (c : Dev nD) : V2 m ρ c main_v19
    = stackU (m ((c : Thread nD τ).loc main_arg2)) (m ((c : Thread nD τ).loc main_arg6)) (m ((c : Thread nD τ).loc main_arg8)) (m ((c : Thread nD τ).loc main_arg12)) :=
  (W2_of_ne m ρ c main_v19 (by decide)).trans (staged_U m ρ c)

/-- The bias row as the second region finds it. -/
theorem bias_eq (c : Dev nD) : V2 m ρ c main_v20 = shapeCast S1x4096 (m ((c : Thread nD τ).loc main_arg13)) Facts₀.shapeCasts_S4096_S1x4096 :=
  (W2_of_ne m ρ c main_v20 (by decide)).trans (staged_bias m ρ c)

/-- THE RESULT BUFFER after the run: the reshape of the kernel's result function of the argument arrays as launched. -/
theorem result_eq (c : Dev nD) : W4 m ρ c (Proc.devRef .tc main_v23)
    = shapeCast S4x2048x4096 (kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13))) Facts₀.shapeCasts_S8192x4096_S4x2048x4096 := by
  have e22 : W3 m ρ c (Proc.devRef .tc main_v22)
      = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) := by
    refine (W3_arr m ρ c 3).trans ((arr1 (V2 m ρ) c).trans ?_)
    rw [hidden_eq, stacked_eq, bias_eq]
    rfl
  show StableHlo.after hostOps2 (W3 m ρ c) (Proc.devRef .tc main_v23) = _
  after_results
  show shapeCast S4x2048x4096 (W3 m ρ c (Proc.devRef .tc main_v22)) Facts₀.shapeCasts_S8192x4096_S4x2048x4096 = _
  rw [e22]

end Cert.KernelIdeal.FoldValue

end
-- ==== Proof.StackedDot.lean ====
/-
  The algebra that joins the two programs, over the extended reals and with no program in sight.

  Both programs compute, for a row `n` and an output column `o`,
      y n o = Σ_s h n s · b s o · c o  +  Σ_s h' n s · b' s o · c' o  +  bias o,
  where `h`, `h'` are the two branches' hidden activations, `b`, `b'` the transposed sign matrices of the two
  output projections and `c`, `c'` the per-column output scales. The reference multiplies each branch's sum by its
  column scale AFTER summing; the kernel folds the scale into the projection (`b s o · c o`), stacks the two
  projections on top of each other and the two hidden activations side by side, and takes ONE sum over the
  stacked axis of length 2048. Two laws join them: a sum over `Fin 2048` is the sum over its first 1024 indices plus
  the sum over its last 1024; and a common factor comes out of a finite sum. The second law is false on the extended
  reals in general (`⊤ + ⊥`), and true when every term and the factor are real numbers, which is what the
  precondition "every input is finite" gives.
-/
import Idealize.ShloMosaic.PureOps.Ideal

noncomputable section

namespace Cert.LowRank

open Idealize.ShloMosaic

/-- An extended real that is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of reals is real. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The sign of any extended real is one of `-1`, `0`, `1`: a real, whatever the argument. -/
theorem isReal_sign (x : EReal) : IsReal (Ideal.sign x) := by
  induction x using EReal.rec with
  | bot => exact ⟨-1, by rw [Ideal.sign_bot]; simp⟩
  | coe r => exact ⟨_, Ideal.sign_coe r⟩
  | top => exact ⟨1, by rw [Ideal.sign_top]; simp⟩

/-- The inclusion of the reals commutes with finite sums. -/
theorem coe_sum {ι : Type} (f : ι → ℝ) (s : Finset ι) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor comes out of a finite sum of reals: `Σ_i (a i · c) = (Σ_i a i) · c`. -/
theorem sum_mul_of_isReal {ι : Type} [Fintype ι] (a : ι → EReal) (c : EReal) (ha : ∀ i, IsReal (a i)) (hc : IsReal c) :
    ∑ i, a i * c = (∑ i, a i) * c := by
  obtain ⟨cr, rfl⟩ := hc
  choose ar har using ha
  have e : a = fun i => ((ar i : ℝ) : EReal) := funext har
  rw [e]
  calc ∑ i, ((ar i : ℝ) : EReal) * (cr : EReal)
      = ∑ i, ((ar i * cr : ℝ) : EReal) := Finset.sum_congr rfl fun i _ => (EReal.coe_mul _ _).symm
    _ = ((∑ i, ar i * cr : ℝ) : EReal) := (coe_sum _ _).symm
    _ = (((∑ i, ar i) * cr : ℝ) : EReal) := by rw [Finset.sum_mul]
    _ = (∑ i, ((ar i : ℝ) : EReal)) * (cr : EReal) := by rw [EReal.coe_mul, coe_sum]

/-- THE STACKED CONTRACTION. `f` is a row of the side-by-side hidden activations (`h` in its first 1024 places, `h'`
    in its last 1024), `g` a column of the stacked, pre-scaled projections (`b · c` on top of `b' · c'`). Their
    product summed over all 2048 places is the first branch's sum times its scale plus the second branch's sum times
    its scale — provided every quantity is a real number. -/
theorem stacked_dot (h h' b b' : Fin 1024 → EReal) (c c' : EReal) (f g : Fin 2048 → EReal)
    (hfl : ∀ s : Fin 1024, f ⟨s.val, by have := s.isLt; omega⟩ = h s)
    (hfr : ∀ s : Fin 1024, f ⟨1024 + s.val, by have := s.isLt; omega⟩ = h' s)
    (hgl : ∀ s : Fin 1024, g ⟨s.val, by have := s.isLt; omega⟩ = b s * c)
    (hgr : ∀ s : Fin 1024, g ⟨1024 + s.val, by have := s.isLt; omega⟩ = b' s * c')
    (rh : ∀ s, IsReal (h s)) (rh' : ∀ s, IsReal (h' s)) (rb : ∀ s, IsReal (b s)) (rb' : ∀ s, IsReal (b' s))
    (rc : IsReal c) (rc' : IsReal c') :
    ∑ k : Fin 2048, f k * g k = (∑ s, h s * b s) * c + (∑ s, h' s * b' s) * c' := by
  have split : ∑ k : Fin 2048, f k * g k
      = ∑ s : Fin 1024, f (Fin.castAdd 1024 s) * g (Fin.castAdd 1024 s)
        + ∑ s : Fin 1024, f (Fin.natAdd 1024 s) * g (Fin.natAdd 1024 s) :=
    Fin.sum_univ_add (a := 1024) (b := 1024) (fun k : Fin (1024 + 1024) => f k * g k)
  rw [split, ← sum_mul_of_isReal _ c (fun s => (rh s).mul (rb s)) rc,
    ← sum_mul_of_isReal _ c' (fun s => (rh' s).mul (rb' s)) rc']
  refine congrArg₂ (· + ·) ?_ ?_
  · refine Finset.sum_congr rfl fun s _ => ?_
    have e : Fin.castAdd 1024 s = (⟨s.val, by have := s.isLt; omega⟩ : Fin 2048) := rfl
    rw [e, hfl, hgl, mul_assoc]
  · refine Finset.sum_congr rfl fun s _ => ?_
    have e : Fin.natAdd 1024 s = (⟨1024 + s.val, by have := s.isLt; omega⟩ : Fin 2048) := rfl
    rw [e, hfr, hgr, mul_assoc]

end Cert.LowRank

end
-- ==== Proof.RefValue.lean ====
/-
  The reference computes the kernel's function.

  Read one operation at a time, the reference's result at row `n` and column `o` is
      (Σ_s hid n s · sgnU s o) · u1 o + (Σ_s hid' n s · sgnU' s o) · u1' o + bias o,
  where `hid n s = (Σ_k (x n k · v2 k) · sgnV k s) · (v1 s · u2 s)` is exactly the kernel's hidden activation of the same
  operands. The kernel's result at (n, o) is ONE sum over the 2048 stacked places of the side-by-side hidden activations
  against the stacked, pre-scaled projections, plus the bias. The stacked-contraction law (StackedDot.lean) joins them;
  it asks that every hidden activation, every sign and both column scales be real numbers: the signs always are, and the
  others are sums and products of entries of `x`, `v2`, `v1`, `u2`, `u1` (and the second branch's), real by hypothesis.
-/
import proofs.«125026_j63342177681876_2_alg».proof.Proof.Gen.ReferenceIdeal.Read
import proofs.«125026_j63342177681876_2_alg».proof.Proof.KernelSpec
import proofs.«125026_j63342177681876_2_alg».proof.Proof.StackedDot
import Idealize.ShloMosaic.Lib.ValueLayout

noncomputable section

namespace Cert.ReferenceIdeal.RefValue

open Idealize.ShloMosaic Idealize.ShloMosaic.ValueIdx
open Cert.ReferenceIdeal Cert.ReferenceIdeal.Read Cert.LowRank
open Cert.KernelIdeal.ArrayValue (hidAt hidArr outArr)
open Cert.KernelIdeal.Spec (signT scaledT stackU hidden kernelOut)

/-! ## The reference's index maps at an index given by its coordinates -/

theorem l7 (n : Fin 8192) (s : Fin 1024) (k : Fin 4096) : lidx_main_v7 (ix2 n s) k = ix2 n k :=
  funext fun a => by match a with | ⟨0, _⟩ => rfl | ⟨1, _⟩ => rfl
theorem r7 (n : Fin 8192) (s : Fin 1024) (k : Fin 4096) : ridx_main_v7 (ix2 n s) k = ix2 k s :=
  funext fun a => by match a with | ⟨0, _⟩ => rfl | ⟨1, _⟩ => rfl
theorem i4 (n : Fin 8192) (k : Fin 4096) : idx_main_v4 (ix2 n k) = ix2 (0 : Fin 1) k :=
  funext fun a => by match a with | ⟨0, _⟩ => rfl | ⟨1, _⟩ => rfl
theorem i8 (n : Fin 8192) (s : Fin 1024) : idx_main_v8 (ix2 n s) = ix2 (0 : Fin 1) s :=
  funext fun a => by match a with | ⟨0, _⟩ => rfl | ⟨1, _⟩ => rfl
theorem l11 (n : Fin 8192) (o : Fin 4096) (s : Fin 1024) : lidx_main_v11 (ix2 n o) s = ix2 n s :=
  funext fun a => by match a with | ⟨0, _⟩ => rfl | ⟨1, _⟩ => rfl
theorem r11 (n : Fin 8192) (o : Fin 4096) (s : Fin 1024) : ridx_main_v11 (ix2 n o) s = ix2 s o :=
  funext fun a => by match a with | ⟨0, _⟩ => rfl | ⟨1, _⟩ => rfl
theorem i12 (n : Fin 8192) (o : Fin 4096) : idx_main_v12 (ix2 n o) = ix2 (0 : Fin 1) o :=
  funext fun a => by match a with | ⟨0, _⟩ => rfl | ⟨1, _⟩ => rfl
theorem l20 (n : Fin 8192) (s : Fin 1024) (k : Fin 4096) : lidx_main_v20 (ix2 n s) k = ix2 n k :=
  funext fun a => by match a with | ⟨0, _⟩ => rfl | ⟨1, _⟩ => rfl
theorem r20 (n : Fin 8192) (s : Fin 1024) (k : Fin 4096) : ridx_main_v20 (ix2 n s) k = ix2 k s :=
  funext fun a => by match a with | ⟨0, _⟩ => rfl | ⟨1, _⟩ => rfl
theorem i17 (n : Fin 8192) (k : Fin 4096) : idx_main_v17 (ix2 n k) = ix2 (0 : Fin 1) k :=
  funext fun a => by match a with | ⟨0, _⟩ => rfl | ⟨1, _⟩ => rfl
theorem i21 (n : Fin 8192) (s : Fin 1024) : idx_main_v21 (ix2 n s) = ix2 (0 : Fin 1) s :=
  funext fun a => by match a with | ⟨0, _⟩ => rfl | ⟨1, _⟩ => rfl
theorem l24 (n : Fin 8192) (o : Fin 4096) (s : Fin 1024) : lidx_main_v24 (ix2 n o) s = ix2 n s :=
  funext fun a => by match a with | ⟨0, _⟩ => rfl | ⟨1, _⟩ => rfl
theorem r24 (n : Fin 8192) (o : Fin 4096) (s : Fin 1024) : ridx_main_v24 (ix2 n o) s = ix2 s o :=
  funext fun a => by match a with | ⟨0, _⟩ => rfl | ⟨1, _⟩ => rfl
theorem i25 (n : Fin 8192) (o : Fin 4096) : idx_main_v25 (ix2 n o) = ix2 (0 : Fin 1) o :=
  funext fun a => by match a with | ⟨0, _⟩ => rfl | ⟨1, _⟩ => rfl
theorem i29 (n : Fin 8192) (o : Fin 4096) : idx_main_v29 (ix2 n o) = ix2 (0 : Fin 1) o :=
  funext fun a => by match a with | ⟨0, _⟩ => rfl | ⟨1, _⟩ => rfl
theorem i28 (o : Fin 4096) : idx_main_v28 (ix2 (0 : Fin 1) o) = ix1 o :=
  funext fun a => by match a with | ⟨0, _⟩ => rfl

/-! ## The hidden activations -/

/-- The reference's first-branch hidden stage at (n, s) is the kernel's hidden activation of the same operands. -/
theorem ref_hid (x0 : (⟨S4x2048x4096, .f32⟩ : BufTy).Contents (Elt Ideal)) (x1 : (⟨S1024x4096, .f32⟩ : BufTy).Contents (Elt Ideal)) (x3 : (⟨S1x4096, .f32⟩ : BufTy).Contents (Elt Ideal)) (x4 x5 : (⟨S1x1024, .f32⟩ : BufTy).Contents (Elt Ideal)) (n : Fin 8192) (s : Fin 1024) :
    val_main_v9 (F := Ideal) x0 x1 x3 x4 x5 (ix2 n s)
      = hidAt (shapeCast Cert.KernelIdeal.S8192x4096 x0 Cert.KernelIdeal.Facts₀.shapeCasts_S4x2048x4096_S8192x4096) x3 (signT x1) (mulf (F := Ideal) (φ := .f32) x4 x5) n s := by
  rw [val_main_v9_apply, val_main_v7_apply, val_main_v8_apply, i8]
  simp only [l7, r7, val_main_v5_apply, val_main_v4_apply, i4]
  unfold hidAt
  rfl

/-- The reference's second-branch hidden stage at (n, s) is the kernel's hidden activation of the same operands. -/
theorem ref_hid' (x0 : (⟨S4x2048x4096, .f32⟩ : BufTy).Contents (Elt Ideal)) (x7 : (⟨S1024x4096, .f32⟩ : BufTy).Contents (Elt Ideal)) (x9 : (⟨S1x4096, .f32⟩ : BufTy).Contents (Elt Ideal)) (x10 x11 : (⟨S1x1024, .f32⟩ : BufTy).Contents (Elt Ideal)) (n : Fin 8192) (s : Fin 1024) :
    val_main_v22 (F := Ideal) x0 x7 x9 x10 x11 (ix2 n s)
      = hidAt (shapeCast Cert.KernelIdeal.S8192x4096 x0 Cert.KernelIdeal.Facts₀.shapeCasts_S4x2048x4096_S8192x4096) x9 (signT x7) (mulf (F := Ideal) (φ := .f32) x10 x11) n s := by
  rw [val_main_v22_apply, val_main_v20_apply, val_main_v21_apply, i21]
  simp only [l20, r20, val_main_v18_apply, val_main_v17_apply, i17]
  unfold hidAt
  rfl

/-- A hidden activation of real operands is real. -/
theorem isReal_hidAt (X : Cert.KernelIdeal.S8192x4096.Idx → EReal) (a : Cert.KernelIdeal.S1x4096.Idx → EReal)
    (B : Cert.KernelIdeal.S4096x1024.Idx → EReal) (g : Cert.KernelIdeal.S1x1024.Idx → EReal)
    (hX : ∀ j, IsReal (X j)) (ha : ∀ j, IsReal (a j)) (hB : ∀ j, IsReal (B j)) (hg : ∀ j, IsReal (g j)) (n : Fin 8192) (s : Fin 1024) :
    IsReal (hidAt X a B g n s) := by
  unfold hidAt
  exact (isReal_sum _ _ fun k _ => ((hX _).mul (ha _)).mul (hB _)).mul (hg _)

/-- Every entry of the flattened input is an entry of the input. -/
theorem isReal_flat (x0 : (⟨S4x2048x4096, .f32⟩ : BufTy).Contents (Elt Ideal)) (r0 : ∀ i, IsReal (x0 i)) (j : Cert.KernelIdeal.S8192x4096.Idx) :
    IsReal (shapeCast Cert.KernelIdeal.S8192x4096 x0 Cert.KernelIdeal.Facts₀.shapeCasts_S4x2048x4096_S8192x4096 j) := by
  show IsReal (val_main_v0 (F := Ideal) x0 j)
  rw [val_main_v0_apply]
  exact r0 _

/-- Every entry of a transposed sign matrix is a sign: a real. -/
theorem isReal_signT (x1 : (⟨S1024x4096, .f32⟩ : BufTy).Contents (Elt Ideal)) (j : Cert.KernelIdeal.S4096x1024.Idx) : IsReal (signT x1 j) := by
  show IsReal (val_main_v6 (F := Ideal) x1 j)
  rw [val_main_v6_apply, val_main_v1_apply, Ideal.hostUnary_sign_def]
  exact isReal_sign _

/-! ## The stacked, pre-scaled projections at an index -/

/-- A pre-scaled projection at (s, o): the transposed sign times the column's scale. -/
theorem scaledT_apply (u : (⟨S4096x1024, .f32⟩ : BufTy).Contents (Elt Ideal)) (c : (⟨S1x4096, .f32⟩ : BufTy).Contents (Elt Ideal)) (s : Fin 1024) (o : Fin 4096) :
    scaledT u c (ix2 s o) = val_main_v10 (F := Ideal) u (ix2 s o) * c (ix2 (0 : Fin 1) o) := by
  show (transpose Cert.KernelIdeal.S1024x4096 [1, 0] (Host.sign (F := Ideal) u) _) (ix2 s o) * (broadcastInDim Cert.KernelIdeal.S1024x4096 ![0, 1] _ c) (ix2 s o) = _
  refine congrArg₂ (· * ·) rfl ?_
  exact broadcastInDim_apply _ _ c (ix2 s o) (ix2 (0 : Fin 1) o) (fun a => match a with
    | ⟨0, _⟩ => by show 0 = if (1 : Nat) = 1 then 0 else s.val; rw [if_pos rfl]
    | ⟨1, _⟩ => by show o.val = if (4096 : Nat) = 1 then 0 else o.val; rw [if_neg (by decide)])

/-- The upper half of the stack is the first branch's pre-scaled projection. -/
theorem stack_upper (x2 : (⟨S4096x1024, .f32⟩ : BufTy).Contents (Elt Ideal)) (x6 : (⟨S1x4096, .f32⟩ : BufTy).Contents (Elt Ideal)) (x8 : (⟨S4096x1024, .f32⟩ : BufTy).Contents (Elt Ideal)) (x12 : (⟨S1x4096, .f32⟩ : BufTy).Contents (Elt Ideal)) (s : Fin 1024) (o : Fin 4096) (hs : s.val < 2048) :
    stackU x2 x6 x8 x12 (ix2 (⟨s.val, hs⟩ : Fin 2048) o) = val_main_v10 (F := Ideal) x2 (ix2 s o) * x6 (ix2 (0 : Fin 1) o) := by
  unfold stackU
  refine (concatenate_pair_apply_left (0 : Fin 2) (scaledT x2 x6) (scaledT x8 x12) _ (ix2 (⟨s.val, hs⟩ : Fin 2048) o) rfl (ix2 s o)
    (fun b => by match b with | ⟨0, _⟩ => rfl | ⟨1, _⟩ => rfl)).trans ?_
  exact scaledT_apply x2 x6 s o

/-- The lower half of the stack is the second branch's pre-scaled projection. -/
theorem stack_lower (x2 : (⟨S4096x1024, .f32⟩ : BufTy).Contents (Elt Ideal)) (x6 : (⟨S1x4096, .f32⟩ : BufTy).Contents (Elt Ideal)) (x8 : (⟨S4096x1024, .f32⟩ : BufTy).Contents (Elt Ideal)) (x12 : (⟨S1x4096, .f32⟩ : BufTy).Contents (Elt Ideal)) (s : Fin 1024) (o : Fin 4096) (hs : 1024 + s.val < 2048) :
    stackU x2 x6 x8 x12 (ix2 (⟨1024 + s.val, hs⟩ : Fin 2048) o) = val_main_v23 (F := Ideal) x8 (ix2 s o) * x12 (ix2 (0 : Fin 1) o) := by
  unfold stackU
  refine (concatenate_pair_apply_right (0 : Fin 2) (scaledT x2 x6) (scaledT x8 x12) _ (ix2 (⟨1024 + s.val, hs⟩ : Fin 2048) o) rfl rfl (ix2 s o)
    (fun b => by match b with | ⟨0, _⟩ => exact fun hne => absurd rfl hne | ⟨1, _⟩ => exact fun _ => rfl)
    (by show s.val + 1024 = 1024 + s.val; omega)).trans ?_
  exact scaledT_apply x8 x12 s o

/-! ## The two results are one function -/

/-- THE REFERENCE'S RESULT before its final reshape is the kernel's, wherever the inputs that enter a product with
    another input are real numbers. -/
theorem ref_eq_kernel (x0 : (⟨S4x2048x4096, .f32⟩ : BufTy).Contents (Elt Ideal)) (x1 : (⟨S1024x4096, .f32⟩ : BufTy).Contents (Elt Ideal)) (x2 : (⟨S4096x1024, .f32⟩ : BufTy).Contents (Elt Ideal)) (x3 : (⟨S1x4096, .f32⟩ : BufTy).Contents (Elt Ideal)) (x4 x5 : (⟨S1x1024, .f32⟩ : BufTy).Contents (Elt Ideal)) (x6 : (⟨S1x4096, .f32⟩ : BufTy).Contents (Elt Ideal))
    (x7 : (⟨S1024x4096, .f32⟩ : BufTy).Contents (Elt Ideal)) (x8 : (⟨S4096x1024, .f32⟩ : BufTy).Contents (Elt Ideal)) (x9 : (⟨S1x4096, .f32⟩ : BufTy).Contents (Elt Ideal)) (x10 x11 : (⟨S1x1024, .f32⟩ : BufTy).Contents (Elt Ideal)) (x12 : (⟨S1x4096, .f32⟩ : BufTy).Contents (Elt Ideal)) (x13 : (⟨S4096, .f32⟩ : BufTy).Contents (Elt Ideal))
    (hr0 : ∀ i, IsReal (x0 i)) (hr3 : ∀ i, IsReal (x3 i)) (hr4 : ∀ i, IsReal (x4 i)) (hr5 : ∀ i, IsReal (x5 i)) (hr6 : ∀ i, IsReal (x6 i))
    (hr9 : ∀ i, IsReal (x9 i)) (hr10 : ∀ i, IsReal (x10 i)) (hr11 : ∀ i, IsReal (x11 i)) (hr12 : ∀ i, IsReal (x12 i)) :
    val_main_v30 (F := Ideal) x0 x1 x2 x3 x4 x5 x6 x7 x8 x9 x10 x11 x12 x13 = kernelOut x0 x1 x2 x3 x4 x5 x6 x7 x8 x9 x10 x11 x12 x13 := by
  funext i
  obtain ⟨n, o, rfl⟩ : ∃ (n : Fin 8192) (o : Fin 4096), i = ix2 n o := ⟨i 0, i 1, eq_ix2 i⟩
  rw [val_main_v30_apply, val_main_v27_apply, val_main_v13_apply, val_main_v26_apply, val_main_v11_apply, val_main_v24_apply,
    val_main_v12_apply, val_main_v25_apply, val_main_v29_apply, val_main_v28_apply]
  simp only [i12, i25, i29, i28, Ideal.addf_def, Ideal.mulf_def]
  unfold kernelOut outArr
  refine congrArg₂ (· + ·) ?_ ?_
  · symm
    refine stacked_dot (fun s => val_main_v9 (F := Ideal) x0 x1 x3 x4 x5 (lidx_main_v11 (ix2 n o) s))
      (fun s => val_main_v22 (F := Ideal) x0 x7 x9 x10 x11 (lidx_main_v24 (ix2 n o) s))
      (fun s => val_main_v10 (F := Ideal) x2 (ridx_main_v11 (ix2 n o) s)) (fun s => val_main_v23 (F := Ideal) x8 (ridx_main_v24 (ix2 n o) s))
      (x6 (ix2 (0 : Fin 1) o)) (x12 (ix2 (0 : Fin 1) o))
      _ _ ?hfl ?hfr ?hgl ?hgr ?rh ?rh' ?rb ?rb' (hr6 _) (hr12 _)
    case hfl =>
      intro s
      unfold Cert.KernelIdeal.Spec.hidden hidArr
      rw [dif_pos (show ((ix2 (⟨((ix2 n o) 0).val, idx2_lt0 (ix2 n o)⟩ : Fin 8192) (⟨s.val, by have := s.isLt; omega⟩ : Fin 2048)) 1).val < 1024 from s.isLt)]
      rw [l11]
      exact (ref_hid x0 x1 x3 x4 x5 n s).symm
    case hfr =>
      intro s
      unfold Cert.KernelIdeal.Spec.hidden hidArr
      rw [dif_neg (show ¬ ((ix2 (⟨((ix2 n o) 0).val, idx2_lt0 (ix2 n o)⟩ : Fin 8192) (⟨1024 + s.val, by have := s.isLt; omega⟩ : Fin 2048)) 1).val < 1024 from by
        show ¬ (1024 + s.val < 1024); omega)]
      rw [l24]
      refine (congrArg (hidAt _ x9 (signT x7) (mulf (F := Ideal) (φ := .f32) x10 x11) _) (Fin.ext (by show 1024 + s.val - 1024 = s.val; omega))).trans ?_
      exact (ref_hid' x0 x7 x9 x10 x11 n s).symm
    case hgl => intro s; rw [r11]; exact stack_upper x2 x6 x8 x12 s o _
    case hgr => intro s; rw [r24]; exact stack_lower x2 x6 x8 x12 s o _
    case rh =>
      intro s
      show IsReal (val_main_v9 (F := Ideal) x0 x1 x3 x4 x5 (lidx_main_v11 (ix2 n o) s))
      rw [l11, ref_hid]
      exact isReal_hidAt _ _ _ _ (isReal_flat x0 hr0) hr3 (isReal_signT x1) (fun j => (hr4 j).mul (hr5 j)) n s
    case rh' =>
      intro s
      show IsReal (val_main_v22 (F := Ideal) x0 x7 x9 x10 x11 (lidx_main_v24 (ix2 n o) s))
      rw [l24, ref_hid']
      exact isReal_hidAt _ _ _ _ (isReal_flat x0 hr0) hr9 (isReal_signT x7) (fun j => (hr10 j).mul (hr11 j)) n s
    case rb =>
      intro s
      show IsReal (val_main_v10 (F := Ideal) x2 (ridx_main_v11 (ix2 n o) s))
      rw [val_main_v10_apply, val_main_v2_apply, Ideal.hostUnary_sign_def]
      exact isReal_sign _
    case rb' =>
      intro s
      show IsReal (val_main_v23 (F := Ideal) x8 (ridx_main_v24 (ix2 n o) s))
      rw [val_main_v23_apply, val_main_v15_apply, Ideal.hostUnary_sign_def]
      exact isReal_sign _
  · exact (shapeCast_a_1a_apply x13 _ (0 : Fin 1) o).symm

end Cert.ReferenceIdeal.RefValue

end
-- ==== Proof.FiniteInputs.lean ====
/-
  The precondition, read back: every entry of every input array is a real number.

  The precondition is the conjunction, over the fourteen input arrays, of "every entry's absolute value is below
  +∞". On the extended reals `|x| < ⊤` excludes exactly `x = ⊤` and `x = ⊥`, so each entry is a real.
-/
import proofs.«125026_j63342177681876_2_alg».proof.Pre_finite_inputs
import proofs.«125026_j63342177681876_2_alg».proof.Proof.Gen.Pre_finite_inputs
import proofs.«125026_j63342177681876_2_alg».proof.Proof.StackedDot
import Idealize.ShloMosaic.Lib.ReduceAll
import Idealize.ShloMosaic.Lib.ValueIdx
import Idealize.ShloMosaic.PureOps.Ideal.Laws

noncomputable section

namespace Cert.Pre_finite_inputs.Decode

open Idealize.ShloMosaic Cert.Pre_finite_inputs Cert.LowRank

/-- The rank-0 shape has one index. -/
instance : Subsingleton S_.Idx := ⟨fun a b => funext fun d => d.elim0⟩

/-- The word of +∞ denotes `⊤`. -/
theorem inf_word : Ideal.ofBits .f32 0x7F800000#32 = (⊤ : EReal) := by simp [Ideal.ofBits, Ideal.ieee]

/-- An extended real whose absolute value is below `⊤` is a real number. -/
theorem isReal_of_abs_lt_inf (x : EReal) (h : Ideal.cmp .olt (max x (-x)) (Ideal.ofBits .f32 0x7F800000#32) = 1#1) : IsReal x := by
  rw [inf_word] at h
  induction x using EReal.rec with
  | bot => exfalso; simp [Ideal.cmp] at h
  | coe r => exact ⟨r, rfl⟩
  | top => exfalso; simp [Ideal.cmp] at h

/-- One `all(|x| < +∞)` that came out true: every entry of `x` is a real number. -/
theorem reals_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ValueIdx.ix0 = 1#1)
    (i : s.Idx) : IsReal (x i) :=
  isReal_of_abs_lt_inf (x i) (Host.reduce_andi_all _ _ hr hu ValueIdx.ix0 e i)

/-- A conjunction of two truth values at the one index is true iff both are. -/
theorem and_split (a b : IVec S_ 1) (h : andi a b ValueIdx.ix0 = 1#1) : a ValueIdx.ix0 = 1#1 ∧ b ValueIdx.ix0 = 1#1 :=
  IntOp.andi_eq_one.mp h

/-- THE PRECONDITION READ BACK: where it holds, every entry of each of the fourteen arrays is a real number. -/
theorem reals_of_pre (a0 : FVec Ideal S4x2048x4096 .f32) (a1 : FVec Ideal S1024x4096 .f32) (a2 : FVec Ideal S4096x1024 .f32)
    (a3 : FVec Ideal S1x4096 .f32) (a4 a5 : FVec Ideal S1x1024 .f32) (a6 : FVec Ideal S1x4096 .f32)
    (a7 : FVec Ideal S1024x4096 .f32) (a8 : FVec Ideal S4096x1024 .f32) (a9 : FVec Ideal S1x4096 .f32)
    (a10 a11 : FVec Ideal S1x1024 .f32) (a12 : FVec Ideal S1x4096 .f32) (a13 : FVec Ideal S4096 .f32)
    (h : fn (F := Ideal) a0 a1 a2 a3 a4 a5 a6 a7 a8 a9 a10 a11 a12 a13 = fun _ => 1#1) :
    (∀ i, IsReal (a0 i)) ∧ (∀ i, IsReal (a1 i)) ∧ (∀ i, IsReal (a2 i)) ∧ (∀ i, IsReal (a3 i)) ∧ (∀ i, IsReal (a4 i))
    ∧ (∀ i, IsReal (a5 i)) ∧ (∀ i, IsReal (a6 i)) ∧ (∀ i, IsReal (a7 i)) ∧ (∀ i, IsReal (a8 i)) ∧ (∀ i, IsReal (a9 i))
    ∧ (∀ i, IsReal (a10 i)) ∧ (∀ i, IsReal (a11 i)) ∧ (∀ i, IsReal (a12 i)) ∧ (∀ i, IsReal (a13 i)) := by
  have h0 := congrFun h ValueIdx.ix0
  dsimp only [fn, fn_part1, fn_part2, fn_part3, fn_part4] at h0
  obtain ⟨h0, r13⟩ := and_split _ _ h0
  obtain ⟨h0, r12⟩ := and_split _ _ h0
  obtain ⟨h0, r11⟩ := and_split _ _ h0
  obtain ⟨h0, r10⟩ := and_split _ _ h0
  obtain ⟨h0, r9⟩ := and_split _ _ h0
  obtain ⟨h0, r8⟩ := and_split _ _ h0
  obtain ⟨h0, r7⟩ := and_split _ _ h0
  obtain ⟨h0, r6⟩ := and_split _ _ h0
  obtain ⟨h0, r5⟩ := and_split _ _ h0
  obtain ⟨h0, r4⟩ := and_split _ _ h0
  obtain ⟨h0, r3⟩ := and_split _ _ h0
  obtain ⟨h0, r2⟩ := and_split _ _ h0
  obtain ⟨r0, r1⟩ := and_split _ _ h0
  exact ⟨reals_of_all a0 _ _ _ r0, reals_of_all a1 _ _ _ r1, reals_of_all a2 _ _ _ r2, reals_of_all a3 _ _ _ r3,
    reals_of_all a4 _ _ _ r4, reals_of_all a5 _ _ _ r5, reals_of_all a6 _ _ _ r6, reals_of_all a7 _ _ _ r7,
    reals_of_all a8 _ _ _ r8, reals_of_all a9 _ _ _ r9, reals_of_all a10 _ _ _ r10, reals_of_all a11 _ _ _ r11,
    reals_of_all a12 _ _ _ r12, reals_of_all a13 _ _ _ r13⟩

end Cert.Pre_finite_inputs.Decode

end
-- ==== Proof.lean ====
/-
  Two binarized low-rank projections, summed: the kernel against its reference, over the extended reals.

  For an input row `x n` (8192 rows of 4096 entries) each of the two branches computes
      hid n s = (Σ_k (x n k · v2 k) · sign(V) s k) · (v1 s · u2 s)          (1024 hidden units)
      y n o   = (Σ_s hid n s · sign(U) o s) · u1 o                           (4096 outputs)
  and the result is the two branches' `y` added, plus the bias. The reference does exactly this. The kernel computes
  both branches' `hid` side by side in one pass over the rows (its first region), folds each output scale `u1 o` into
  its projection's column `o`, stacks the two scaled projections, and takes one contraction of length 2048 plus the bias
  (its second region). The two agree because a sum over 2048 places is the sum over the first 1024 plus the sum over the
  last 1024, and because a common factor comes out of a finite sum — which on the extended reals needs the terms and
  the factor to be real numbers, and they are: the precondition makes every input entry finite, and a sign is -1, 0 or 1.

  The modules: StackedDot (the algebra), BlockValue and BlockStore (what each kernel body leaves in a 256-row block),
  ArrayValue (from the 32 blocks to the whole arrays), KernelSpec (the kernel's result as a function of the arguments),
  KernelRun and FoldValue (the kernel's run ends with that function in the result buffer), RefValue (the reference's
  stages compute the same function), FiniteInputs (the precondition read back).
-/
import proofs.«125026_j63342177681876_2_alg».proof.Defs
import proofs.«125026_j63342177681876_2_alg».proof.Proof.Gen.Kernel
import proofs.«125026_j63342177681876_2_alg».proof.Proof.Gen.Kernel.Skeleton
import proofs.«125026_j63342177681876_2_alg».proof.Proof.Gen.Kernel.Launch
import proofs.«125026_j63342177681876_2_alg».proof.Proof.Gen.Kernel.Points
import proofs.«125026_j63342177681876_2_alg».proof.Proof.Gen.Kernel.Frame
import proofs.«125026_j63342177681876_2_alg».proof.Proof.Gen.KernelIdeal
import proofs.«125026_j63342177681876_2_alg».proof.Proof.Gen.KernelIdeal.Skeleton
import proofs.«125026_j63342177681876_2_alg».proof.Proof.Gen.KernelIdeal.Launch
import proofs.«125026_j63342177681876_2_alg».proof.Proof.Gen.KernelIdeal.Points
import proofs.«125026_j63342177681876_2_alg».proof.Proof.Gen.KernelIdeal.Frame
import proofs.«125026_j63342177681876_2_alg».proof.Proof.Gen.ReferenceIdeal
import proofs.«125026_j63342177681876_2_alg».proof.Proof.Gen.ReferenceIdeal.Run
import proofs.«125026_j63342177681876_2_alg».proof.Proof.Gen.ReferenceIdeal.Read
import proofs.«125026_j63342177681876_2_alg».proof.Proof.Gen.Pre_finite_inputs
import proofs.«125026_j63342177681876_2_alg».proof.Proof.KernelRun
import proofs.«125026_j63342177681876_2_alg».proof.Proof.FoldValue
import proofs.«125026_j63342177681876_2_alg».proof.Proof.RefValue
import proofs.«125026_j63342177681876_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, every entry finite, both programs end with the same result: the kernel's
    result buffer holds the reshape of `Spec.kernelOut` of the arguments (its run, read back), and the reference's result
    is the reshape of its last stage, which is the same function of the same arguments. -/
theorem algebraic : Cert.algebraic_KernelIdeal_ReferenceIdeal := by
  intro m ρ m' ρ' hpre hagree
  refine ⟨fun c => shapeCast Cert.KernelIdeal.S4x2048x4096
      (Cert.KernelIdeal.Spec.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)))
      Cert.KernelIdeal.Facts₀.shapeCasts_S8192x4096_S4x2048x4096, ?_, ?_⟩
  · exact (θ_run Cert.KernelIdeal.defs _ _).mono
      (fun r h c => ⟨((h c).1).trans (Cert.KernelIdeal.FoldValue.result_eq m ρ c), (h c).2⟩)
      (Cert.KernelIdeal.Named.run (F := Ideal) m ρ)
  · refine (θ_run Cert.ReferenceIdeal.defs _ _).mono (fun r h c => ⟨((h c).1).trans ?_, (h c).2⟩)
      (Cert.ReferenceIdeal.Value.run (F := Ideal) m' ρ')
    obtain ⟨e0, e1, e2, e3, e4, e5, e6, e7, e8, e9, e10, e11, e12, e13⟩ := hagree c
    obtain ⟨q0, q1, q2, q3, q4, q5, q6, q7, q8, q9, q10, q11, q12, q13⟩ :=
      Cert.Pre_finite_inputs.Decode.reals_of_pre _ _ _ _ _ _ _ _ _ _ _ _ _ _ (hpre c)
    rw [Cert.ReferenceIdeal.Read.val_main_v31_eq, e0, e1, e2, e3, e4, e5, e6, e7, e8, e9, e10, e11, e12, e13]
    show shapeCast _ (Cert.ReferenceIdeal.Read.val_main_v30 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) _ = _
    rw [Cert.ReferenceIdeal.RefValue.ref_eq_kernel _ _ _ _ _ _ _ _ _ _ _ _ _ _ q0 q3 q4 q5 q6 q9 q10 q11 q12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
